-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1408 : Shape := ⟨2, ![4096, 1408]⟩
abbrev S4096x4096 : Shape := ⟨2, ![4096, 4096]⟩
abbrev S1408x256 : Shape := ⟨2, ![1408, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S4096x1408 : S_.BroadcastsInDim S4096x1408 (![] : Fin 0 → Fin S4096x1408.rank)
  reducesTo_S4096x1408_S_d0_1 : S4096x1408.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1408x256 : S_.BroadcastsInDim S1408x256 (![] : Fin 0 → Fin S1408x256.rank)
  reducesTo_S1408x256_S_d0_1 : S1408x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S256x40 .f32) (main_arg5 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40 .f32 := Host.absf main_arg4
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S4096x1408 .f32) (main_arg1 : FVec F S4096x4096 .f32) (main_arg2 : FVec F S1408x256 .f32) (main_arg3 : FVec F S256 .f32) (main_arg4 : FVec F S256x40 .f32) (main_arg5 : FVec F S40 .f32) : IVec S_ 1 :=
  let main_v0 : FVec F S4096x1408 .f32 := Host.absf main_arg0
  let main_cst : FVec F S_ .f32 := constant S_ .f32 0x7F800000#32
  let main_v1 : FVec F S4096x1408 .f32 := broadcastInDim S4096x1408 ![] bcast_S_S4096x1408 main_cst
  let main_v2 : IVec S4096x1408 1 := cmpf .olt main_v0 main_v1
  let main_c : IVec S_ 1 := constantI S_ 1 1#1
  let main_v3 : IVec S_ 1 := (fun x v => Host.reduce IntOp.andi x v reducesTo_S4096x1408_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1408x256 .f32 := Host.absf main_arg2
  let main_cst_2 : FVec F S_ .f32 := constant S_ .f32 0x7F800000#32
  let main_v10 : FVec F S1408x256 .f32 := broadcastInDim S1408x256 ![] bcast_S_S1408x256 main_cst_2
  let main_v11 : IVec S1408x256 1 := cmpf .olt main_v9 main_v10
  let main_c_3 : IVec S_ 1 := constantI S_ 1 1#1
  let main_v12 : IVec S_ 1 := (fun x v => Host.reduce IntOp.andi x v reducesTo_S1408x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x1408 : Shape := ⟨2, ![4096, 1408]⟩
abbrev S4096x4096 : Shape := ⟨2, ![4096, 4096]⟩
abbrev S1408x256 : Shape := ⟨2, ![1408, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S_ : Shape := ⟨0, ![]⟩
abbrev S256x128 : Shape := ⟨2, ![256, 128]⟩
abbrev S1x40 : Shape := ⟨2, ![1, 40]⟩
abbrev S1x128 : Shape := ⟨2, ![1, 128]⟩
abbrev S4096x256 : Shape := ⟨2, ![4096, 256]⟩
abbrev S512x1408 : Shape := ⟨2, ![512, 1408]⟩
abbrev S512x256 : Shape := ⟨2, ![512, 256]⟩
abbrev S4096x128 : Shape := ⟨2, ![4096, 128]⟩
abbrev S512x4096 : Shape := ⟨2, ![512, 4096]⟩
abbrev S512x128 : Shape := ⟨2, ![512, 128]⟩
abbrev S4096x40 : Shape := ⟨2, ![4096, 40]⟩

abbrev nBuf : Space → Nat
  | .hbm => 20
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x4096, .f32⟩
  | .hbm, ⟨2, _⟩ => ⟨S1408x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1408x256, .bf16⟩
  | .hbm, ⟨7, _⟩ => ⟨S1x256, .f32⟩
  | .hbm, ⟨8, _⟩ => ⟨S_, .i32⟩
  | .hbm, ⟨9, _⟩ => ⟨S_, .f32⟩
  | .hbm, ⟨10, _⟩ => ⟨S256x128, .f32⟩
  | .hbm, ⟨11, _⟩ => ⟨S256x128, .bf16⟩
  | .hbm, ⟨12, _⟩ => ⟨S1x40, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S4096x256, .bf16⟩
  | .hbm, ⟨17, _⟩ => ⟨S4096x128, .bf16⟩
  | .hbm, ⟨18, _⟩ => ⟨S4096x128, .f32⟩
  | .hbm, ⟨19, _⟩ => ⟨S4096x40, .f32⟩
  | .local _ .vmem, ⟨0, _⟩ => ⟨S512x1408, .f32⟩
  | .local _ .vmem, ⟨1, _⟩ => ⟨S512x1408, .f32⟩
  | .local _ .vmem, ⟨2, _⟩ => ⟨S1408x256, .bf16⟩
  | .local _ .vmem, ⟨3, _⟩ => ⟨S512x256, .bf16⟩
  | .local _ .vmem, ⟨4, _⟩ => ⟨S512x256, .bf16⟩
  | .local _ .vmem, ⟨5, _⟩ => ⟨S512x4096, .f32⟩
  | .local _ .vmem, ⟨6, _⟩ => ⟨S512x4096, .f32⟩
  | .local _ .vmem, ⟨7, _⟩ => ⟨S4096x256, .bf16⟩
  | .local _ .vmem, ⟨8, _⟩ => ⟨S1x256, .f32⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | .local _ .vmem, ⟨12, _⟩ => ⟨S512x4096, .f32⟩
  | .local _ .vmem, ⟨13, _⟩ => ⟨S512x4096, .f32⟩
  | .local _ .vmem, ⟨14, _⟩ => ⟨S4096x128, .bf16⟩
  | .local _ .vmem, ⟨15, _⟩ => ⟨S1x128, .f32⟩
  | .local _ .vmem, ⟨16, _⟩ => ⟨S512x128, .f32⟩
  | .local _ .vmem, ⟨17, _⟩ => ⟨S512x128, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S256_S1x256 : S256.ShapeCasts S1x256
  pads_S256x40_S256x128_000_0880 : S256x40.Pads (![0, 0] : Fin 2 → Nat) ![0, 88] ![0, 0] S256x128
  h_S_ : 0 < S_.numel
  shapeCasts_S40_S1x40 : S40.ShapeCasts S1x40
  pads_S1x40_S1x128_000_0880 : S1x40.Pads (![0, 0] : Fin 2 → Nat) ![0, 88] ![0, 0] S1x128
  inb_S512x1408_S512x1408_0_0 : ∀ a, (![0, 0] : Fin 2 → Nat) a + S512x1408.size a ≤ S512x1408.size a
  h_S512x1408 : 0 < S512x1408.numel
  inb_S1408x256_S1408x256_0_0 : ∀ a, (![0, 0] : Fin 2 → Nat) a + S1408x256.size a ≤ S1408x256.size a
  h_S1408x256 : 0 < S1408x256.numel
  shapeCasts_S1408x256_S1408x256 : S1408x256.ShapeCasts S1408x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S4096x128_S4096x40_0_0 : S4096x128.Slices ![0, 0] S4096x40
  dot_S512x1408_S1408x256_S512x256_1_0_0_1_n_n_wf : DotDims.WF S512x1408 S1408x256 S512x256 [1] [0] [0] [1] [] []
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1408.size a ≤ S4096x1408.size a
  hwx0_0 : ∀ i : grid0.Coords, EltTy.bits .f32 = 32 ∨ (Rect.block (s := S4096x1408) S512x1408.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1408x256.size a ≤ S1408x256.size a
  hwx0_1 : ∀ i : grid0.Coords, EltTy.bits .bf16 = 32 ∨ (Rect.block (s := S1408x256) S1408x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .bf16 = 32 ∨ (Rect.block (s := S4096x128) S512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .bf16 = 32 ∨ (Rect.block (s := S4096x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)

variable [Facts₀]

def dot_S512x1408_S1408x256_S512x256_1_0_0_1_n_n : DotDims S512x1408 S1408x256 S512x256 where
  lhsContracting := [1]
  rhsContracting := [0]
  lhsNonContracting := [0]
  rhsNonContracting := [1]
  lhsBatch := []
  rhsBatch := []
  wf := dot_S512x1408_S1408x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1408x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1408 : Shape := ⟨2, ![4096, 1408]⟩
abbrev S4096x4096 : Shape := ⟨2, ![4096, 4096]⟩
abbrev S1408x256 : Shape := ⟨2, ![1408, 256]⟩
abbrev S256 : Shape := ⟨1, ![256]⟩
abbrev S256x40 : Shape := ⟨2, ![256, 40]⟩
abbrev S40 : Shape := ⟨1, ![40]⟩
abbrev S_ : Shape := ⟨0, ![]⟩
abbrev S1x256 : Shape := ⟨2, ![1, 256]⟩
abbrev S256x128 : Shape := ⟨2, ![256, 128]⟩
abbrev S1x40 : Shape := ⟨2, ![1, 40]⟩
abbrev S1x128 : Shape := ⟨2, ![1, 128]⟩
abbrev S4096x256 : Shape := ⟨2, ![4096, 256]⟩
abbrev S256x1408 : Shape := ⟨2, ![256, 1408]⟩
abbrev S256x256 : Shape := ⟨2, ![256, 256]⟩
abbrev S256x4096 : Shape := ⟨2, ![256, 4096]⟩
abbrev S4096x128 : Shape := ⟨2, ![4096, 128]⟩
abbrev S4096x40 : Shape := ⟨2, ![4096, 40]⟩

abbrev nBuf : Space → Nat
  | .hbm => 31
  | .vmem => 22
  | .smem => 0
  | _ => 0

abbrev bufTy : (tb : Table) → Fin (tcTables nBuf tb) → BufTy
  | .hbm, ⟨0, _⟩ => ⟨S4096x1408, .f32⟩
  | .hbm, ⟨1, _⟩ => ⟨S4096x4096, .f32⟩
  | .hbm, ⟨2, _⟩ => ⟨S1408x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S_, .i32⟩
  | .hbm, ⟨7, _⟩ => ⟨S_, .f32⟩
  | .hbm, ⟨8, _⟩ => ⟨S4096x1408, .f32⟩
  | .hbm, ⟨9, _⟩ => ⟨S_, .i32⟩
  | .hbm, ⟨10, _⟩ => ⟨S_, .f32⟩
  | .hbm, ⟨11, _⟩ => ⟨S4096x4096, .f32⟩
  | .hbm, ⟨12, _⟩ => ⟨S_, .i32⟩
  | .hbm, ⟨13, _⟩ => ⟨S_, .f32⟩
  | .hbm, ⟨14, _⟩ => ⟨S1408x256, .f32⟩
  | .hbm, ⟨15, _⟩ => ⟨S1x256, .f32⟩
  | .hbm, ⟨16, _⟩ => ⟨S_, .i32⟩
  | .hbm, ⟨17, _⟩ => ⟨S_, .f32⟩
  | .hbm, ⟨18, _⟩ => ⟨S1x256, .f32⟩
  | .hbm, ⟨19, _⟩ => ⟨S_, .i32⟩
  | .hbm, ⟨20, _⟩ => ⟨S_, .f32⟩
  | .hbm, ⟨21, _⟩ => ⟨S256x128, .f32⟩
  | .hbm, ⟨22, _⟩ => ⟨S1x40, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S4096x256, .f32⟩
  | .hbm, ⟨27, _⟩ => ⟨S4096x256, .f32⟩
  | .hbm, ⟨28, _⟩ => ⟨S4096x128, .f32⟩
  | .hbm, ⟨29, _⟩ => ⟨S4096x128, .f32⟩
  | .hbm, ⟨30, _⟩ => ⟨S4096x40, .f32⟩
  | .local _ .vmem, ⟨0, _⟩ => ⟨S256x1408, .f32⟩
  | .local _ .vmem, ⟨1, _⟩ => ⟨S256x1408, .f32⟩
  | .local _ .vmem, ⟨2, _⟩ => ⟨S1408x256, .f32⟩
  | .local _ .vmem, ⟨3, _⟩ => ⟨S256x256, .f32⟩
  | .local _ .vmem, ⟨4, _⟩ => ⟨S256x256, .f32⟩
  | .local _ .vmem, ⟨5, _⟩ => ⟨S256x4096, .f32⟩
  | .local _ .vmem, ⟨6, _⟩ => ⟨S256x4096, .f32⟩
  | .local _ .vmem, ⟨7, _⟩ => ⟨S4096x256, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x4096, .f32⟩
  | .local _ .vmem, ⟨17, _⟩ => ⟨S256x4096, .f32⟩
  | .local _ .vmem, ⟨18, _⟩ => ⟨S4096x128, .f32⟩
  | .local _ .vmem, ⟨19, _⟩ => ⟨S1x128, .f32⟩
  | .local _ .vmem, ⟨20, _⟩ => ⟨S256x128, .f32⟩
  | .local _ .vmem, ⟨21, _⟩ => ⟨S256x128, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_call3_v0 : Ref sig .tc := ⟨.hbm, 17, rfl⟩
abbrev main_v4 : Ref sig .tc := ⟨.hbm, 18, rfl⟩
abbrev main_c_3 : Ref sig .tc := ⟨.hbm, 19, rfl⟩
abbrev main_call4_v0 : Ref sig .tc := ⟨.hbm, 20, rfl⟩
abbrev main_v5 : Ref sig .tc := ⟨.hbm, 21, rfl⟩
abbrev main_v6 : Ref sig .tc := ⟨.hbm, 22, rfl⟩
abbrev main_c_4 : Ref sig .tc := ⟨.hbm, 23, rfl⟩
abbrev main_call5_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  pads_S4096x1408_S4096x1408_000_000 : S4096x1408.Pads (![0, 0] : Fin 2 → Nat) ![0, 0] ![0, 0] S4096x1408
  h_S_ : 0 < S_.numel
  pads_S4096x4096_S4096x4096_000_000 : S4096x4096.Pads (![0, 0] : Fin 2 → Nat) ![0, 0] ![0, 0] S4096x4096
  pads_S1408x256_S1408x256_000_000 : S1408x256.Pads (![0, 0] : Fin 2 → Nat) ![0, 0] ![0, 0] S1408x256
  shapeCasts_S256_S1x256 : S256.ShapeCasts S1x256
  pads_S1x256_S1x256_000_000 : S1x256.Pads (![0, 0] : Fin 2 → Nat) ![0, 0] ![0, 0] S1x256
  pads_S256x40_S256x128_000_0880 : S256x40.Pads (![0, 0] : Fin 2 → Nat) ![0, 88] ![0, 0] S256x128
  shapeCasts_S40_S1x40 : S40.ShapeCasts S1x40
  pads_S1x40_S1x128_000_0880 : S1x40.Pads (![0, 0] : Fin 2 → Nat) ![0, 88] ![0, 0] S1x128
  inb_S256x1408_S256x1408_0_0 : ∀ a, (![0, 0] : Fin 2 → Nat) a + S256x1408.size a ≤ S256x1408.size a
  h_S256x1408 : 0 < S256x1408.numel
  shapeCasts_S256x1408_S256x1408 : S256x1408.ShapeCasts S256x1408
  inb_S1408x256_S1408x256_0_0 : ∀ a, (![0, 0] : Fin 2 → Nat) a + S1408x256.size a ≤ S1408x256.size a
  h_S1408x256 : 0 < S1408x256.numel
  shapeCasts_S1408x256_S1408x256 : S1408x256.ShapeCasts S1408x256
  inb_S256x256_S256x256_0_0 : ∀ a, (![0, 0] : Fin 2 → Nat) a + S256x256.size a ≤ S256x256.size a
  h_S256x256 : 0 < S256x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S4096x128_S4096x40_0_0 : S4096x128.Slices ![0, 0] S4096x40
  dot_S256x1408_S1408x256_S256x256_1_0_0_1_n_n_wf : DotDims.WF S256x1408 S1408x256 S256x256 [1] [0] [0] [1] [] []
  dot_S256x4096_S4096x256_S256x256_1_0_0_1_n_n_wf : DotDims.WF S256x4096 S4096x256 S256x256 [1] [0] [0] [1] [] []
  dot_S256x256_S256x128_S256x128_1_0_0_1_n_n_wf : DotDims.WF S256x256 S256x128 S256x128 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1408.size a ≤ S4096x1408.size a
  hwx0_0 : ∀ i : grid0.Coords, EltTy.bits .f32 = 32 ∨ (Rect.block (s := S4096x1408) S256x1408.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1408x256.size a ≤ S1408x256.size a
  hwx0_1 : ∀ i : grid0.Coords, EltTy.bits .f32 = 32 ∨ (Rect.block (s := S1408x256) S1408x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S4096x256.size a
  hwx2_0 : ∀ i : grid2.Coords, EltTy.bits .f32 = 32 ∨ (Rect.block (s := S4096x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S4096x128.size a
  hwx2_2 : ∀ i : grid2.Coords, EltTy.bits .f32 = 32 ∨ (Rect.block (s := S4096x128) S256x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .f32 = 32 ∨ (Rect.block (s := S4096x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S4096x128.size a
  hwx3_3 : ∀ i : grid3.Coords, EltTy.bits .f32 = 32 ∨ (Rect.block (s := S4096x128) S256x128.size (cc3_transform_3 i) (hinb3_3 i)).WholeWords (EltTy.packing .f32)

variable [Facts₀]

def dot_S256x1408_S1408x256_S256x256_1_0_0_1_n_n : DotDims S256x1408 S1408x256 S256x256 where
  lhsContracting := [1]
  rhsContracting := [0]
  lhsNonContracting := [0]
  rhsNonContracting := [1]
  lhsBatch := []
  rhsBatch := []
  wf := dot_S256x1408_S1408x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S256x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1408x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S256x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== Proof.KHeld.lean ====
import proofs.«108747_g2000603737520232_pallasbulk_743_2_alg».proof.Proof.Gen.KernelIdeal.Frame

set_option maxRecDepth 16384

noncomputable section

namespace Cert.KernelIdeal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and at the end each buffer the
    host side holds — the arguments, every intermediate array, the result — has the contents the fold through the
    program's host stretches and kernel regions gives it (`W8`): the launch over the program's segments, the last
    thread state read against the final state. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Held

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.Stages.lean ====
/-
  A two-layer graph convolution on the extended reals, entry by entry.

  For node features `X`, a normalized adjacency `A`, weights `W₁`, `W₂` and bias rows `b₁`, `b₂`, the network is
  `A · (relu (A · (X · W₁) + b₁) · W₂) + b₂`: every matrix product is a finite sum over the contracted coordinate, a bias
  row is added to every row, and `relu` is the maximum with zero. Here these stages are functions of matrices of
  extended reals, and a matrix product computed on a block of rows (into a zero accumulator, with a bias row broadcast
  down the rows) is read at an entry as the same sums. Nothing here asks the entries to be finite: the two programs
  compared build the result by the same sums in the same grouping.
-/
import proofs.«108747_g2000603737520232_pallasbulk_743_2_alg».proof.Proof.LibMatProduct
import Idealize.ShloMosaic.Lib.ValueIdx
import Idealize.ShloMosaic.Lib.ValueLayout
import Idealize.ShloMosaic.Lib.Pipeline.Value
import Idealize.ShloMosaic.Lib.KernelVsHost

noncomputable section

namespace Cert.Gcn

open Idealize.ShloMosaic Idealize.ShloMosaic.ValueIdx

/-- A matrix of extended reals with `a` rows and `b` columns. -/
abbrev Mat (a b : ℕ) : Type := (⟨2, ![a, b]⟩ : Shape).Idx → EReal

/-- The zero that `relu` compares with: the float word of `+0`. -/
abbrev zeroWord : EReal := Scalar.ofBits (F := Ideal) .f32 0x00000000#32

/-- The matrix product: entry `(r, c)` is the sum over `h` of `A (r, h) · B (h, c)`. -/
def prod {m k n : ℕ} (A : Mat m k) (B : Mat k n) : Mat m n :=
  fun i => ∑ h : Fin k, A (ix2 (i 0 : Fin m) h) * B (ix2 h (i 1 : Fin n))

/-- The product plus a bias row added to every row. -/
def agg {m k n : ℕ} (A : Mat m k) (B : Mat k n) (b : Mat 1 n) : Mat m n :=
  fun i => prod A B i + b (ix2 (0 : Fin 1) (i 1 : Fin n))

/-- The maximum with zero, entry by entry. -/
def relu {m n : ℕ} (Y : Mat m n) : Mat m n := fun i => max (Y i) zeroWord

/-- The network: `A · (relu (A · (X · W₁) + b₁) · W₂) + b₂`. -/
def gcn {N f h o : ℕ} (X : Mat N f) (A : Mat N N) (W₁ : Mat f h) (b₁ : Mat 1 h) (W₂ : Mat h o) (b₂ : Mat 1 o) : Mat N o :=
  agg A (prod (relu (agg A (prod X W₁) b₁)) W₂) b₂

theorem prod_apply {m k n : ℕ} (A : Mat m k) (B : Mat k n) (r : Fin m) (c : Fin n) :
    prod A B (ix2 r c) = ∑ h : Fin k, A (ix2 r h) * B (ix2 h c) := rfl

theorem agg_apply {m k n : ℕ} (A : Mat m k) (B : Mat k n) (b : Mat 1 n) (r : Fin m) (c : Fin n) :
    agg A B b (ix2 r c) = (∑ h : Fin k, A (ix2 r h) * B (ix2 h c)) + b (ix2 (0 : Fin 1) c) := rfl

theorem relu_apply {m n : ℕ} (Y : Mat m n) (i : (⟨2, ![m, n]⟩ : Shape).Idx) : relu Y i = max (Y i) zeroWord := rfl

/-! ## A block of rows computed by a matrix unit -/

/-- A product of a block `[m, k]` by `[k, n]` into a zero accumulator, at entry `(r, c)`. -/
theorem matmul_block {m k n : ℕ} {φ₁ φ₂ : FTy} (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![m, k]⟩ φ₁) (W : FVec Ideal ⟨2, ![k, n]⟩ φ₂) (r : Fin m) (c : Fin n) :
    matmul d none X W (constant ⟨2, ![m, n]⟩ .f32 0x00000000#32) (ix2 r c) = ∑ h : Fin k, X (ix2 r h) * W (ix2 h c) :=
  Cert.LibMatProduct.matmul_zero_apply d none hlc hrc hln hrn hlb hrb X W r c

/-- That product plus a bias row `[1, n]` broadcast down the rows, at entry `(r, c)`. -/
theorem matmul_bias_block {m k n : ℕ} {φ₁ φ₂ : FTy} (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![m, k]⟩ φ₁) (W : FVec Ideal ⟨2, ![k, n]⟩ φ₂) (b : FVec Ideal ⟨2, ![1, n]⟩ .f32)
    (hs : (⟨2, ![1, n]⟩ : Shape).ShapeCasts ⟨2, ![1, n]⟩) (hb : (⟨2, ![1, n]⟩ : Shape).Broadcasts ⟨2, ![m, n]⟩)
    (r : Fin m) (c : Fin n) :
    addf (matmul d none X W (constant ⟨2, ![m, n]⟩ .f32 0x00000000#32))
        (broadcastTo ⟨2, ![m, n]⟩ (shapeCast ⟨2, ![1, n]⟩ b hs) hb) (ix2 r c)
      = (∑ h : Fin k, X (ix2 r h) * W (ix2 h c)) + b (ix2 (0 : Fin 1) c) := by
  rw [addf_apply, matmul_block d hlc hrc hln hrn hlb hrb, broadcastTo_1b_ab_apply, shapeCast_self]

/-! ## From a block's rows to the stage's entry

A kernel sees a block of rows of the left operand and the whole right operand. If the block's row `r` is row `i 0` of
the array, and the operands the kernel loaded are the arrays' own entries, then the sums the body forms are the stage's
entry at `i`. -/

theorem prod_eq_of_rows {m k n bm bn : ℕ} (A : Mat m k) (B : Mat k n) (x0 : Mat bm k) (x1 : Mat k bn)
    (i : (⟨2, ![m, n]⟩ : Shape).Idx) (r : Fin bm) (q : Fin bn)
    (h0 : ∀ h : Fin k, x0 (ix2 r h) = A (ix2 (i 0 : Fin m) h))
    (h1 : ∀ h : Fin k, x1 (ix2 h q) = B (ix2 h (i 1 : Fin n))) :
    (∑ h : Fin k, x0 (ix2 r h) * x1 (ix2 h q)) = prod A B i :=
  Finset.sum_congr rfl fun h _ => by rw [h0 h, h1 h]

theorem agg_eq_of_rows {m k n bm bn : ℕ} (A : Mat m k) (B : Mat k n) (b : Mat 1 n) (x0 : Mat bm k) (x1 : Mat k bn) (x2 : Mat 1 bn)
    (i : (⟨2, ![m, n]⟩ : Shape).Idx) (r : Fin bm) (q : Fin bn)
    (h0 : ∀ h : Fin k, x0 (ix2 r h) = A (ix2 (i 0 : Fin m) h))
    (h1 : ∀ h : Fin k, x1 (ix2 h q) = B (ix2 h (i 1 : Fin n)))
    (h2 : x2 (ix2 (0 : Fin 1) q) = b (ix2 (0 : Fin 1) (i 1 : Fin n))) :
    (∑ h : Fin k, x0 (ix2 r h) * x1 (ix2 h q)) + x2 (ix2 (0 : Fin 1) q) = agg A B b i := by
  unfold agg
  rw [h2, prod_eq_of_rows A B x0 x1 i r q h0 h1]

theorem relu_agg_eq_of_rows {m k n bm bn : ℕ} (A : Mat m k) (B : Mat k n) (b : Mat 1 n) (x0 : Mat bm k) (x1 : Mat k bn) (x2 : Mat 1 bn)
    (i : (⟨2, ![m, n]⟩ : Shape).Idx) (r : Fin bm) (q : Fin bn)
    (h0 : ∀ h : Fin k, x0 (ix2 r h) = A (ix2 (i 0 : Fin m) h))
    (h1 : ∀ h : Fin k, x1 (ix2 h q) = B (ix2 h (i 1 : Fin n)))
    (h2 : x2 (ix2 (0 : Fin 1) q) = b (ix2 (0 : Fin 1) (i 1 : Fin n))) :
    max ((∑ h : Fin k, x0 (ix2 r h) * x1 (ix2 h q)) + x2 (ix2 (0 : Fin 1) q)) zeroWord = relu (agg A B b) i := by
  unfold relu
  rw [agg_eq_of_rows A B b x0 x1 x2 i r q h0 h1 h2]

/-- The fused layer: `relu (A · H + b) · W` from a block of rows of `A` and whole `H`, `b`, `W`. -/
theorem fused_eq_of_rows {N kk hh o bm bo : ℕ} (A : Mat N kk) (H : Mat kk hh) (b : Mat 1 hh) (W : Mat hh o)
    (x0 : Mat bm kk) (x1 : Mat kk hh) (x2 : Mat 1 hh) (x3 : Mat hh bo)
    (i : (⟨2, ![N, o]⟩ : Shape).Idx) (r : Fin bm) (q : Fin bo)
    (h0 : ∀ k : Fin kk, x0 (ix2 r k) = A (ix2 (i 0 : Fin N) k))
    (h1 : ∀ (k : Fin kk) (h : Fin hh), x1 (ix2 k h) = H (ix2 k h))
    (h2 : ∀ h : Fin hh, x2 (ix2 (0 : Fin 1) h) = b (ix2 (0 : Fin 1) h))
    (h3 : ∀ h : Fin hh, x3 (ix2 h q) = W (ix2 h (i 1 : Fin o))) :
    (∑ h : Fin hh, max ((∑ k : Fin kk, x0 (ix2 r k) * x1 (ix2 k h)) + x2 (ix2 (0 : Fin 1) h)) zeroWord * x3 (ix2 h q))
      = prod (relu (agg A H b)) W i := by
  unfold prod
  refine Finset.sum_congr rfl fun h _ => ?_
  rw [h3 h]
  congr 1
  exact relu_agg_eq_of_rows A H b x0 x1 x2 (ix2 (i 0 : Fin N) h) r h h0 (fun k => h1 k h) (h2 h)

/-! ## Padding by nothing -/

/-- A pad of width zero on every side of a matrix is the matrix. -/
theorem pad_none {a b : ℕ} {α : Type} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x :=
  funext fun j => pad_apply_of_inside _ _ _ x v h hu j j fun ax => by
    match ax with
    | ⟨0, _⟩ => show (j 0).val = 0 + (j 0).val * (0 + 1); omega
    | ⟨1, _⟩ => show (j 1).val = 0 + (j 1).val * (0 + 1); omega

end Cert.Gcn

end
-- ==== Proof.KRegions.lean ====
/-
  The idealized kernel's three regions, block by block.

  Each region runs its body once per block of 512 rows: the body loads a block of rows of the left operand and the whole
  of every other operand, and stores one block of 512 rows of the result. Read at an entry, what it stores is the stage's
  own sum over the contracted coordinate (a change of float format is the identity on the extended reals). The blocks
  of rows tile the result, so after the region the whole array is the stage of the arrays the region found:
  `X · W₁`, then `relu (A · H₁ + b₁) · W₂`, then `A · H₂ + b₂`.
-/
import proofs.«108747_g2000603737520232_pallasbulk_743_2_alg».proof.Proof.Gen.KernelIdeal.Frame
import proofs.«108747_g2000603737520232_pallasbulk_743_2_alg».proof.Proof.Stages

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The three bodies at an entry -/

/-- The first body: row `r` of the block of `X` against column `q` of `W₁`. -/
theorem xw_at (x0 : FVec Ideal S512x1408 .f32) (x1 : FVec Ideal S1408x256 .bf16) (r : Fin 512) (q : Fin 256) :
    k0_pay1 (F := Ideal) x0 x1 (ix2 r q) = ∑ h : Fin 1408, x0 (ix2 r h) * x1 (ix2 h q) := by
  show matmul (F := Ideal) dot_S512x1408_S1408x256_S512x256_1_0_0_1_n_n none (truncf (F := Ideal) .bf16 x0 _)
      (shapeCast S1408x256 x1 _) (constant (F := Ideal) S512x256 .f32 0x00000000#32) (ix2 r q) = _
  rw [shapeCast_self]
  exact matmul_block dot_S512x1408_S1408x256_S512x256_1_0_0_1_n_n rfl rfl rfl rfl rfl rfl _ _ r q

theorem xw_at' (x0 : FVec Ideal S512x1408 .f32) (x1 : FVec Ideal S1408x256 .bf16) (j : S512x256.Idx) :
    k0_pay1 (F := Ideal) x0 x1 j = ∑ h : Fin 1408, x0 (ix2 (j 0 : Fin 512) h) * x1 (ix2 h (j 1 : Fin 256)) :=
  (congrArg (k0_pay1 (F := Ideal) x0 x1) (eq_ix2 j)).trans (xw_at x0 x1 (j 0) (j 1))

/-- The fused body: the block of `A` against `H₁`, plus the bias row, the maximum with zero, and the result against
    `W₂`; changing float format in between is the identity on the extended reals. -/
theorem fused_at (x0 : FVec Ideal S512x4096 .f32) (x1 : FVec Ideal S4096x256 .bf16) (x2 : FVec Ideal S1x256 .f32)
    (x3 : FVec Ideal S256x128 .bf16) (r : Fin 512) (q : Fin 128) :
    k1_pay1 (F := Ideal) x0 x1 x2 x3 (ix2 r q)
      = ∑ h : Fin 256, max ((∑ k : Fin 4096, x0 (ix2 r k) * x1 (ix2 k h)) + x2 (ix2 (0 : Fin 1) h)) zeroWord * x3 (ix2 h q) := by
  show matmul (F := Ideal) dot_S512x256_S256x128_S512x128_1_0_0_1_n_n none
      (truncf (F := Ideal) .bf16 (maximumf (addf (matmul (F := Ideal) dot_S512x4096_S4096x256_S512x256_1_0_0_1_n_n none
            (truncf (F := Ideal) .bf16 x0 _) (shapeCast S4096x256 x1 _) (constant (F := Ideal) S512x256 .f32 0x00000000#32))
          (broadcastTo S512x256 (shapeCast S1x256 x2 _) _)) (broadcast S512x256 (Scalar.ofBits (F := Ideal) .f32 0x00000000#32))) _)
      (shapeCast S256x128 x3 _) (constant (F := Ideal) S512x128 .f32 0x00000000#32) (ix2 r q) = _
  rw [shapeCast_self x3, shapeCast_self x1]
  refine (matmul_block dot_S512x256_S256x128_S512x128_1_0_0_1_n_n rfl rfl rfl rfl rfl rfl _ _ r q).trans ?_
  refine Finset.sum_congr rfl (fun h _ => ?_)
  congr 1
  show max (addf (matmul (F := Ideal) dot_S512x4096_S4096x256_S512x256_1_0_0_1_n_n none (truncf (F := Ideal) .bf16 x0 _) x1
      (constant (F := Ideal) S512x256 .f32 0x00000000#32)) (broadcastTo S512x256 (shapeCast S1x256 x2 _) _) (ix2 r h)) zeroWord = _
  rw [matmul_bias_block dot_S512x4096_S4096x256_S512x256_1_0_0_1_n_n rfl rfl rfl rfl rfl rfl]
  rfl

theorem fused_at' (x0 : FVec Ideal S512x4096 .f32) (x1 : FVec Ideal S4096x256 .bf16) (x2 : FVec Ideal S1x256 .f32)
    (x3 : FVec Ideal S256x128 .bf16) (j : S512x128.Idx) :
    k1_pay1 (F := Ideal) x0 x1 x2 x3 j
      = ∑ h : Fin 256, max ((∑ k : Fin 4096, x0 (ix2 (j 0 : Fin 512) k) * x1 (ix2 k h)) + x2 (ix2 (0 : Fin 1) h)) zeroWord
          * x3 (ix2 h (j 1 : Fin 128)) :=
  (congrArg (k1_pay1 (F := Ideal) x0 x1 x2 x3) (eq_ix2 j)).trans (fused_at x0 x1 x2 x3 (j 0) (j 1))

/-- The last body: the block of `A` against `H₂`, plus the bias row. -/
theorem aggout_at (x0 : FVec Ideal S512x4096 .f32) (x1 : FVec Ideal S4096x128 .bf16) (x2 : FVec Ideal S1x128 .f32)
    (r : Fin 512) (q : Fin 128) :
    k2_pay1 (F := Ideal) x0 x1 x2 (ix2 r q) = (∑ k : Fin 4096, x0 (ix2 r k) * x1 (ix2 k q)) + x2 (ix2 (0 : Fin 1) q) := by
  show addf (matmul (F := Ideal) dot_S512x4096_S4096x128_S512x128_1_0_0_1_n_n none (truncf (F := Ideal) .bf16 x0 _)
      (shapeCast S4096x128 x1 _) (constant (F := Ideal) S512x128 .f32 0x00000000#32))
      (broadcastTo S512x128 (shapeCast S1x128 x2 _) _) (ix2 r q) = _
  rw [shapeCast_self x1]
  exact matmul_bias_block dot_S512x4096_S4096x128_S512x128_1_0_0_1_n_n rfl rfl rfl rfl rfl rfl _ _ x2 _ _ r q

theorem aggout_at' (x0 : FVec Ideal S512x4096 .f32) (x1 : FVec Ideal S4096x128 .bf16) (x2 : FVec Ideal S1x128 .f32)
    (j : S512x128.Idx) :
    k2_pay1 (F := Ideal) x0 x1 x2 j
      = (∑ k : Fin 4096, x0 (ix2 (j 0 : Fin 512) k) * x1 (ix2 k (j 1 : Fin 128))) + x2 (ix2 (0 : Fin 1) (j 1 : Fin 128)) :=
  (congrArg (k2_pay1 (F := Ideal) x0 x1 x2) (eq_ix2 j)).trans (aggout_at x0 x1 x2 (j 0) (j 1))

/-! ## Region 0: `X · W₁`, 512 rows at a point -/

/-- The printed index maps over the grid: the moving windows follow the output's block of rows, the others stay. -/
theorem idx0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of 512 rows is some point's. -/
theorem onto0 : ∀ q0 : Fin 8, ∃ t : Fin cfg0.N, win0_2.index t = ![q0.val, 0] :=
  (by decide +kernel : ∀ q0 : Fin 8, ∃ t : Fin grid0.N, win0_2.index t = ![q0.val, 0])

/-- What point `t` writes back is its block of the whole stage. -/
theorem flushed0 (c : Dev nD) (t : Fin cfg0.N) :
    (dat0 V c).flushed 2 t = ((cfg0.win 2).blk t).view.read (Elt Ideal)
      (prod (m := 4096) (k := 1408) (n := 256) (V c main_arg0) (V c main_v0)) := by
  show (cfg0.win 2).cut (grid0.coords t) ((dat0 V c).after 2 t) = _
  rw [after0_2]
  unfold out0_2
  rw [View.canon_unit_zero hz]
  simp only [View.ld_unit_zero (S := S512x1408) hz, View.ld_unit_zero (S := S1408x256) hz]
  obtain ⟨e0, e1, e2, e3, e4⟩ := idx0 t
  funext j
  refine (xw_at' (iblk0 V c 0 t) (iblk0 V c 1 t) j).trans ?_
  refine prod_eq_of_rows (m := 4096) (k := 1408) (n := 256) (bm := 512) (bn := 256) (V c main_arg0) (V c main_v0)
    (iblk0 V c 0 t) (iblk0 V c 1 t) (((cfg0.win 2).blk t).view.emb j) (j 0) (j 1) (fun k => ?_) (fun k => ?_)
  · show V c main_arg0 (((cfg0.win 0).blk t).view.emb (ix2 (j 0 : Fin 512) k)) = _
    refine congrArg (V c main_arg0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1408 + 1 * k.val = k.val; omega
  · show V c main_v0 (((cfg0.win 1).blk t).view.emb (ix2 k (j 1 : Fin 256))) = _
    refine congrArg (V c main_v0) (funext fun a => Fin.ext ?_)
    match a with
    | ⟨0, _⟩ => show win0_1.index t (0 : Fin 2) * 1408 + 1 * k.val = k.val; omega
    | ⟨1, _⟩ => show win0_1.index t (1 : Fin 2) * 256 + 1 * (j 1).val = win0_2.index t (1 : Fin 2) * 256 + 1 * (j 1).val; omega

theorem mem_blk0 (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v6).slice (win0_2.rect t)).set ↔ _
  rw [View.set_slice_whole, Rect.mem_set_unit]
  exact Iff.rfl

/-- Every row of the array lies in the block of the point `row / 512`. -/
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ := onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- After the region the output array is the whole stage of the arrays the region found. -/
theorem final0 (c : Dev nD) :
    (dat0 V c).arrAt 2 cfg0.N = prod (m := 4096) (k := 1408) (n := 256) (V c main_arg0) (V c main_v0) :=
  (dat0 V c).arrAt_eq_of_cover 2 _ (fun t _ => flushed0 V c t) cover0

/-! ## Region 1: `relu (A · H₁ + b₁) · W₂`, 512 rows at a point -/

/-- The printed index maps over the grid: the moving windows follow the output's block of rows, the others stay. -/
theorem idx1 : ∀ t : Fin cfg1.N,
    win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0 :=
  (by decide +kernel : ∀ t : Fin grid1.N, _)

/-- Every block of 512 rows is some point's. -/
theorem onto1 : ∀ q0 : Fin 8, ∃ t : Fin cfg1.N, win1_4.index t = ![q0.val, 0] :=
  (by decide +kernel : ∀ q0 : Fin 8, ∃ t : Fin grid1.N, win1_4.index t = ![q0.val, 0])

/-- What point `t` writes back is its block of the whole stage. -/
theorem flushed1 (c : Dev nD) (t : Fin cfg1.N) :
    (dat1 V c).flushed 4 t = ((cfg1.win 4).blk t).view.read (Elt Ideal)
      (prod (m := 4096) (k := 256) (n := 128) (relu (agg (m := 4096) (k := 4096) (n := 256) (V c main_arg1) (V c main_v6) (V c main_v1))) (V c main_v3)) := by
  show (cfg1.win 4).cut (grid1.coords t) ((dat1 V c).after 4 t) = _
  rw [after1_4]
  unfold out1_4
  rw [View.canon_unit_zero hz]
  simp only [View.ld_unit_zero (S := S512x4096) hz, View.ld_unit_zero (S := S4096x256) hz, View.ld_unit_zero (S := S1x256) hz, View.ld_unit_zero (S := S256x128) hz]
  obtain ⟨e0, e1, e2, e3, e4, e5, e6, e7, e8⟩ := idx1 t
  funext j
  refine (fused_at' (iblk1 V c 0 t) (iblk1 V c 1 t) (iblk1 V c 2 t) (iblk1 V c 3 t) j).trans ?_
  refine fused_eq_of_rows (N := 4096) (kk := 4096) (hh := 256) (o := 128) (bm := 512) (bo := 128) (V c main_arg1) (V c main_v6) (V c main_v1) (V c main_v3)
    (iblk1 V c 0 t) (iblk1 V c 1 t) (iblk1 V c 2 t) (iblk1 V c 3 t) (((cfg1.win 4).blk t).view.emb j) (j 0) (j 1) (fun k => ?_) (fun k h => ?_) (fun h => ?_) (fun h => ?_)
  · show V c main_arg1 (((cfg1.win 0).blk t).view.emb (ix2 (j 0 : Fin 512) k)) = _
    refine congrArg (V c main_arg1) (funext fun a => Fin.ext ?_)
    match a with
    | ⟨0, _⟩ => show win1_0.index t (0 : Fin 2) * 512 + 1 * (j 0).val = win1_4.index t (0 : Fin 2) * 512 + 1 * (j 0).val; omega
    | ⟨1, _⟩ => show win1_0.index t (1 : Fin 2) * 4096 + 1 * k.val = k.val; omega
  · show V c main_v6 (((cfg1.win 1).blk t).view.emb (ix2 k h)) = _
    refine congrArg (V c main_v6) (funext fun a => Fin.ext ?_)
    match a with
    | ⟨0, _⟩ => show win1_1.index t (0 : Fin 2) * 4096 + 1 * k.val = k.val; omega
    | ⟨1, _⟩ => show win1_1.index t (1 : Fin 2) * 256 + 1 * h.val = h.val; omega
  · show V c main_v1 (((cfg1.win 2).blk t).view.emb (ix2 (0 : Fin 1) h)) = _
    refine congrArg (V c main_v1) (funext fun a => Fin.ext ?_)
    match a with
    | ⟨0, _⟩ => show win1_2.index t (0 : Fin 2) * 1 + 1 * 0 = 0; omega
    | ⟨1, _⟩ => show win1_2.index t (1 : Fin 2) * 256 + 1 * h.val = h.val; omega
  · show V c main_v3 (((cfg1.win 3).blk t).view.emb (ix2 h (j 1 : Fin 128))) = _
    refine congrArg (V c main_v3) (funext fun a => Fin.ext ?_)
    match a with
    | ⟨0, _⟩ => show win1_3.index t (0 : Fin 2) * 256 + 1 * h.val = h.val; omega
    | ⟨1, _⟩ => show win1_3.index t (1 : Fin 2) * 128 + 1 * (j 1).val = win1_4.index t (1 : Fin 2) * 128 + 1 * (j 1).val; omega

theorem mem_blk1 (t : Fin cfg1.N) (i : S4096x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v7).slice (win1_4.rect t)).set ↔ _
  rw [View.set_slice_whole, Rect.mem_set_unit]
  exact Iff.rfl

/-- Every row of the array lies in the block of the point `row / 512`. -/
theorem cover1 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  obtain ⟨t, ht⟩ := onto1 ⟨(i 0).val / 512, by omega⟩
  have q0 : win1_4.index t (0 : Fin 2) = (i 0).val / 512 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 128 ≤ (i 1).val ∧ (i 1).val < win1_4.index t (1 : Fin 2) * 128 + 128; omega

/-- After the region the output array is the whole stage of the arrays the region found. -/
theorem final1 (c : Dev nD) :
    (dat1 V c).arrAt 4 cfg1.N = prod (m := 4096) (k := 256) (n := 128) (relu (agg (m := 4096) (k := 4096) (n := 256) (V c main_arg1) (V c main_v6) (V c main_v1))) (V c main_v3) :=
  (dat1 V c).arrAt_eq_of_cover 4 _ (fun t _ => flushed1 V c t) cover1

/-! ## Region 2: `A · H₂ + b₂`, 512 rows at a point -/

/-- The printed index maps over the grid: the moving windows follow the output's block of rows, the others stay. -/
theorem idx2 : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0 :=
  (by decide +kernel : ∀ t : Fin grid2.N, _)

/-- Every block of 512 rows is some point's. -/
theorem onto2 : ∀ q0 : Fin 8, ∃ t : Fin cfg2.N, win2_3.index t = ![q0.val, 0] :=
  (by decide +kernel : ∀ q0 : Fin 8, ∃ t : Fin grid2.N, win2_3.index t = ![q0.val, 0])

/-- What point `t` writes back is its block of the whole stage. -/
theorem flushed2 (c : Dev nD) (t : Fin cfg2.N) :
    (dat2 V c).flushed 3 t = ((cfg2.win 3).blk t).view.read (Elt Ideal)
      (agg (m := 4096) (k := 4096) (n := 128) (V c main_arg1) (V c main_v7) (V c main_v5)) := by
  show (cfg2.win 3).cut (grid2.coords t) ((dat2 V c).after 3 t) = _
  rw [after2_3]
  unfold out2_3
  rw [View.canon_unit_zero hz]
  simp only [View.ld_unit_zero (S := S512x4096) hz, View.ld_unit_zero (S := S4096x128) hz, View.ld_unit_zero (S := S1x128) hz]
  obtain ⟨e0, e1, e2, e3, e4, e5, e6⟩ := idx2 t
  funext j
  refine (aggout_at' (iblk2 V c 0 t) (iblk2 V c 1 t) (iblk2 V c 2 t) j).trans ?_
  refine agg_eq_of_rows (m := 4096) (k := 4096) (n := 128) (bm := 512) (bn := 128) (V c main_arg1) (V c main_v7) (V c main_v5)
    (iblk2 V c 0 t) (iblk2 V c 1 t) (iblk2 V c 2 t) (((cfg2.win 3).blk t).view.emb j) (j 0) (j 1) (fun k => ?_) (fun k => ?_) ?_
  · show V c main_arg1 (((cfg2.win 0).blk t).view.emb (ix2 (j 0 : Fin 512) k)) = _
    refine congrArg (V c main_arg1) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 4096 + 1 * k.val = k.val; omega
  · show V c main_v7 (((cfg2.win 1).blk t).view.emb (ix2 k (j 1 : Fin 128))) = _
    refine congrArg (V c main_v7) (funext fun a => Fin.ext ?_)
    match a with
    | ⟨0, _⟩ => show win2_1.index t (0 : Fin 2) * 4096 + 1 * k.val = k.val; omega
    | ⟨1, _⟩ => show win2_1.index t (1 : Fin 2) * 128 + 1 * (j 1).val = win2_3.index t (1 : Fin 2) * 128 + 1 * (j 1).val; omega
  · show V c main_v5 (((cfg2.win 2).blk t).view.emb (ix2 (0 : Fin 1) (j 1 : Fin 128))) = _
    refine congrArg (V c main_v5) (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

theorem mem_blk2 (t : Fin cfg2.N) (i : S4096x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v8).slice (win2_3.rect t)).set ↔ _
  rw [View.set_slice_whole, Rect.mem_set_unit]
  exact Iff.rfl

/-- Every row of the array lies in the block of the point `row / 512`. -/
theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  obtain ⟨t, ht⟩ := onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 128 ≤ (i 1).val ∧ (i 1).val < win2_3.index t (1 : Fin 2) * 128 + 128; omega

/-- After the region the output array is the whole stage of the arrays the region found. -/
theorem final2 (c : Dev nD) :
    (dat2 V c).arrAt 3 cfg2.N = agg (m := 4096) (k := 4096) (n := 128) (V c main_arg1) (V c main_v7) (V c main_v5) :=
  (dat2 V c).arrAt_eq_of_cover 3 _ (fun t _ => flushed2 V c t) cover2

end Cert.KernelIdeal.Blocks

end
-- ==== Proof.KRun.lean ====
/-
  The idealized kernel's result as a function of its arguments.

  At the end of the run the result buffer holds the first 40 columns of the last region's array. That array is
  `A · H₂ + b₂` of the arrays the region found; `H₂` is what the second region left, `relu (A · H₁ + b₁) · W₂` of the
  arrays it found; `H₁` is what the first region left, `X · W₁`. The arrays the regions find that no region wrote are what
  the host operations before them made of the arguments: `W₁` is the argument with its float format changed, the bias
  rows are the bias vectors recast as one row, and `W₂`, `b₂` are padded with zero columns up to 128. No region and no
  host operation writes an argument, so `X` and `A` are the arguments themselves.
-/
import proofs.«108747_g2000603737520232_pallasbulk_743_2_alg».proof.Proof.KHeld
import proofs.«108747_g2000603737520232_pallasbulk_743_2_alg».proof.Proof.KRegions
import Idealize.ShloMosaic.Lib.StableHlo.Run
import Idealize.ShloMosaic.PureOps.Ideal

set_option maxRecDepth 16384

noncomputable section

namespace Cert.KernelIdeal.Result

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen Cert.KernelIdeal.Blocks Cert.Gcn

variable (m : (ℓ : Loc nD τ sig) → Buf (Elt Ideal) ℓ) (ρ : Dev nD → PrngReg)

/-- The result on core `c`, from the argument arrays in `m`: the network of the arguments (the weights and biases as the
    host operations lay them out), cut to its first 40 columns. -/
def out (c : Dev nD) : S4096x40.Idx → EReal :=
  extractStridedSlice S4096x40 ![0, 0]
    (gcn (N := 4096) (f := 1408) (h := 256) (o := 128)
      (m ((c : Thread nD τ).loc main_arg0)) (m ((c : Thread nD τ).loc main_arg1))
      (truncf (F := Ideal) .bf16 (m ((c : Thread nD τ).loc main_arg2) : FVec Ideal S1408x256 .f32) Facts₀.bitsLt_bf16_f32)
      (shapeCast S1x256 (m ((c : Thread nD τ).loc main_arg3) : S256.Idx → EReal) Facts₀.shapeCasts_S256_S1x256)
      (truncf (F := Ideal) .bf16 (pad S256x128 ![0, 0] ![0, 88] ![0, 0] (m ((c : Thread nD τ).loc main_arg4) : S256x40.Idx → EReal)
          (sitofp (F := Ideal) .f32 (constantI S_ 32 0#32)) Facts₀.pads_S256x40_S256x128_000_0880 Facts₀.h_S_ : FVec Ideal S256x128 .f32)
        Facts₀.bitsLt_bf16_f32)
      (pad S1x128 ![0, 0] ![0, 88] ![0, 0]
        (shapeCast S1x40 (m ((c : Thread nD τ).loc main_arg5) : S40.Idx → EReal) Facts₀.shapeCasts_S40_S1x40)
        (sitofp (F := Ideal) .f32 (constantI S_ 32 0#32)) Facts₀.pads_S1x40_S1x128_000_0880 Facts₀.h_S_))
    Facts₀.slices_S4096x128_S4096x40_0_0

/-! ## What the host operations before the regions leave -/

theorem entry_arg0 (c : Dev nD) :
    (V4 (F := Ideal) m ρ c main_arg0 : S4096x1408.Idx → EReal) = m ((c : Thread nD τ).loc main_arg0) := by
  show (W4 (F := Ideal) m ρ c (Proc.devRef .tc main_arg0) : S4096x1408.Idx → EReal) = _
  after_results
  all_goals rfl

theorem entry_arg1 (c : Dev nD) :
    (W4 (F := Ideal) m ρ c (Proc.devRef .tc main_arg1) : S4096x4096.Idx → EReal) = m ((c : Thread nD τ).loc main_arg1) := by
  after_results
  all_goals rfl

theorem entry_v0 (c : Dev nD) :
    (V4 (F := Ideal) m ρ c main_v0 : S1408x256.Idx → EReal)
      = truncf (F := Ideal) .bf16 (m ((c : Thread nD τ).loc main_arg2) : FVec Ideal S1408x256 .f32) Facts₀.bitsLt_bf16_f32 := by
  show (W4 (F := Ideal) m ρ c (Proc.devRef .tc main_v0) : S1408x256.Idx → EReal) = _
  after_results
  all_goals rfl

theorem entry_v1 (c : Dev nD) :
    (W4 (F := Ideal) m ρ c (Proc.devRef .tc main_v1) : S1x256.Idx → EReal)
      = shapeCast S1x256 (m ((c : Thread nD τ).loc main_arg3) : S256.Idx → EReal) Facts₀.shapeCasts_S256_S1x256 := by
  after_results
  all_goals rfl

theorem entry_v3 (c : Dev nD) :
    (W4 (F := Ideal) m ρ c (Proc.devRef .tc main_v3) : S256x128.Idx → EReal)
      = truncf (F := Ideal) .bf16 (pad S256x128 ![0, 0] ![0, 88] ![0, 0] (m ((c : Thread nD τ).loc main_arg4) : S256x40.Idx → EReal)
          (sitofp (F := Ideal) .f32 (constantI S_ 32 0#32)) Facts₀.pads_S256x40_S256x128_000_0880 Facts₀.h_S_ : FVec Ideal S256x128 .f32)
        Facts₀.bitsLt_bf16_f32 := by
  after_results
  all_goals rfl

theorem entry_v5 (c : Dev nD) :
    (W4 (F := Ideal) m ρ c (Proc.devRef .tc main_v5) : S1x128.Idx → EReal)
      = pad S1x128 ![0, 0] ![0, 88] ![0, 0]
          (shapeCast S1x40 (m ((c : Thread nD τ).loc main_arg5) : S40.Idx → EReal) Facts₀.shapeCasts_S40_S1x40)
          (sitofp (F := Ideal) .f32 (constantI S_ 32 0#32)) Facts₀.pads_S1x40_S1x128_000_0880 Facts₀.h_S_ := by
  after_results
  all_goals rfl

/-! ## What each region finds, and leaves -/

/-- The first region leaves `H₁ = X · W₁`. -/
theorem h1_eq (c : Dev nD) :
    (V5 (F := Ideal) m ρ c main_v6 : S4096x256.Idx → EReal)
      = prod (m := 4096) (k := 1408) (n := 256) (m ((c : Thread nD τ).loc main_arg0))
          (truncf (F := Ideal) .bf16 (m ((c : Thread nD τ).loc main_arg2) : FVec Ideal S1408x256 .f32) Facts₀.bitsLt_bf16_f32) := by
  have e := (W5_arr (F := Ideal) m ρ c 2).trans (final0 (V4 (F := Ideal) m ρ) c)
  rw [entry_arg0 m ρ c, entry_v0 m ρ c] at e
  exact e

/-- The second region finds `A`, `b₁` as a row and the padded `W₂` as the host operations left them. -/
theorem mid_arg1 (c : Dev nD) :
    (V5 (F := Ideal) m ρ c main_arg1 : S4096x4096.Idx → EReal) = m ((c : Thread nD τ).loc main_arg1) :=
  (W5_of_ne (F := Ideal) m ρ c main_arg1 (by decide)).trans (entry_arg1 m ρ c)

theorem mid_v1 (c : Dev nD) :
    (V5 (F := Ideal) m ρ c main_v1 : S1x256.Idx → EReal)
      = shapeCast S1x256 (m ((c : Thread nD τ).loc main_arg3) : S256.Idx → EReal) Facts₀.shapeCasts_S256_S1x256 :=
  (W5_of_ne (F := Ideal) m ρ c main_v1 (by decide)).trans (entry_v1 m ρ c)

theorem mid_v3 (c : Dev nD) :
    (V5 (F := Ideal) m ρ c main_v3 : S256x128.Idx → EReal)
      = truncf (F := Ideal) .bf16 (pad S256x128 ![0, 0] ![0, 88] ![0, 0] (m ((c : Thread nD τ).loc main_arg4) : S256x40.Idx → EReal)
          (sitofp (F := Ideal) .f32 (constantI S_ 32 0#32)) Facts₀.pads_S256x40_S256x128_000_0880 Facts₀.h_S_ : FVec Ideal S256x128 .f32)
        Facts₀.bitsLt_bf16_f32 :=
  (W5_of_ne (F := Ideal) m ρ c main_v3 (by decide)).trans (entry_v3 m ρ c)

/-- The third region finds `A` and the padded `b₂` as the host operations left them. -/
theorem last_arg1 (c : Dev nD) :
    (V6 (F := Ideal) m ρ c main_arg1 : S4096x4096.Idx → EReal) = m ((c : Thread nD τ).loc main_arg1) :=
  ((W6_arr (F := Ideal) m ρ c 0).trans (((dat1 (V5 (F := Ideal) m ρ) c).arrAt_in 0 rfl _).trans (A_eq1 (V5 (F := Ideal) m ρ) c 0))).trans
    (mid_arg1 m ρ c)

theorem last_v5 (c : Dev nD) :
    (V6 (F := Ideal) m ρ c main_v5 : S1x128.Idx → EReal)
      = pad S1x128 ![0, 0] ![0, 88] ![0, 0]
          (shapeCast S1x40 (m ((c : Thread nD τ).loc main_arg5) : S40.Idx → EReal) Facts₀.shapeCasts_S40_S1x40)
          (sitofp (F := Ideal) .f32 (constantI S_ 32 0#32)) Facts₀.pads_S1x40_S1x128_000_0880 Facts₀.h_S_ :=
  (W6_of_ne (F := Ideal) m ρ c main_v5 (by decide)).trans ((W5_of_ne (F := Ideal) m ρ c main_v5 (by decide)).trans (entry_v5 m ρ c))

/-- THE RESULT BUFFER at the end of the fold is `out`. -/
theorem result_eq (c : Dev nD) :
    (W8 (F := Ideal) m ρ c (Proc.devRef .tc main_v9) : S4096x40.Idx → EReal) = out m c := by
  have e9 : (W8 (F := Ideal) m ρ c (Proc.devRef .tc main_v9) : S4096x40.Idx → EReal)
      = extractStridedSlice S4096x40 ![0, 0] (W7 (F := Ideal) m ρ c (Proc.devRef .tc main_v8) : S4096x128.Idx → EReal)
          Facts₀.slices_S4096x128_S4096x40_0_0 := by
    after_results
    all_goals rfl
  have e8 := (W7_arr (F := Ideal) m ρ c 3).trans (final2 (V6 (F := Ideal) m ρ) c)
  have e7 := (W6_arr (F := Ideal) m ρ c 4).trans (final1 (V5 (F := Ideal) m ρ) c)
  rw [mid_arg1 m ρ c, h1_eq m ρ c, mid_v1 m ρ c, mid_v3 m ρ c] at e7
  rw [last_arg1 m ρ c, show (V6 (F := Ideal) m ρ c main_v7 : S4096x128.Idx → EReal) = _ from e7, last_v5 m ρ c] at e8
  rw [e9]
  unfold out gcn
  exact congrArg (fun Y => extractStridedSlice S4096x40 ![0, 0] Y Facts₀.slices_S4096x128_S4096x40_0_0) e8

/-! ## The run -/

/-- Every weakly fair execution of the idealized kernel terminates without a fault with the result buffer at `out` and
    the arguments unchanged. -/
theorem run : θ_run defs (onTc (τ := τ) (main (F := Ideal))) ⟨m, fun _ => 0, ρ⟩ (fun r => ∀ c : Dev nD,
      r.2.mem ((c.tc : Thread nD τ).loc main_v9) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v9 (by decide))).trans (result_eq m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩)
    (Cert.KernelIdeal.Held.run_held m ρ)

end Cert.KernelIdeal.Result

end
-- ==== Proof.RHeld.lean ====
import proofs.«108747_g2000603737520232_pallasbulk_743_2_alg».proof.Proof.Gen.ReferenceIdeal.Frame

set_option maxRecDepth 16384

noncomputable section

namespace Cert.ReferenceIdeal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and at the end each buffer the
    host side holds — the arguments, every intermediate array, the result — has the contents the fold through the
    program's host stretches and kernel regions gives it (`W17`): the launch over the program's segments, the last
    thread state read against the final state. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

end Cert.ReferenceIdeal.Held

end
-- ==== Proof.RRegions.lean ====
/-
  The idealized reference's four regions, block by block.

  Each region runs its body once per block of 256 rows: the body loads a block of rows of the left operand and the whole
  of every other operand, and stores one block of 256 rows of the result. Read at an entry, what it stores is the stage's
  own sum over the contracted coordinate. The blocks of rows tile the result, so after the region the whole array is the
  stage of the arrays the region found: `X · W₁`, then `relu (A · H₁ + b₁)`, then that times `W₂`, then `A · H₂ + b₂`.
-/
import proofs.«108747_g2000603737520232_pallasbulk_743_2_alg».proof.Proof.Gen.ReferenceIdeal.Frame
import proofs.«108747_g2000603737520232_pallasbulk_743_2_alg».proof.Proof.Stages

set_option maxRecDepth 16384

noncomputable section

namespace Cert.ReferenceIdeal.Blocks

open Idealize.ShloMosaic Idealize.ShloMosaic.TcCoe Idealize.ShloMosaic.ValueIdx
open Idealize.SL.Sem
open Idealize.ShloMosaic.Pipeline (Dat)
open Cert.ReferenceIdeal Cert.ReferenceIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The four bodies at an entry -/

/-- The first body: row `r` of the block of `X` against column `q` of `W₁`. -/
theorem xw1_at (x0 : FVec Ideal S256x1408 .f32) (x1 : FVec Ideal S1408x256 .f32) (r : Fin 256) (q : Fin 256) :
    k0_pay1 (F := Ideal) x0 x1 (ix2 r q) = ∑ h : Fin 1408, x0 (ix2 r h) * x1 (ix2 h q) := by
  show matmul (F := Ideal) dot_S256x1408_S1408x256_S256x256_1_0_0_1_n_n none (shapeCast S256x1408 x0 _)
      (shapeCast S1408x256 x1 _) (constant (F := Ideal) S256x256 .f32 0x00000000#32) (ix2 r q) = _
  rw [shapeCast_self x0, shapeCast_self x1]
  exact matmul_block dot_S256x1408_S1408x256_S256x256_1_0_0_1_n_n rfl rfl rfl rfl rfl rfl _ _ r q

theorem xw1_at' (x0 : FVec Ideal S256x1408 .f32) (x1 : FVec Ideal S1408x256 .f32) (j : S256x256.Idx) :
    k0_pay1 (F := Ideal) x0 x1 j = ∑ h : Fin 1408, x0 (ix2 (j 0 : Fin 256) h) * x1 (ix2 h (j 1 : Fin 256)) :=
  (congrArg (k0_pay1 (F := Ideal) x0 x1) (eq_ix2 j)).trans (xw1_at x0 x1 (j 0) (j 1))

/-- The second body: the block of `A` against `H₁`, plus the bias row, then the maximum with zero. -/
theorem agg1_at (x0 : FVec Ideal S256x4096 .f32) (x1 : FVec Ideal S4096x256 .f32) (x2 : FVec Ideal S1x256 .f32)
    (r : Fin 256) (q : Fin 256) :
    k1_pay1 (F := Ideal) x0 x1 x2 (ix2 r q)
      = max ((∑ k : Fin 4096, x0 (ix2 r k) * x1 (ix2 k q)) + x2 (ix2 (0 : Fin 1) q)) zeroWord := by
  show max (addf (matmul (F := Ideal) dot_S256x4096_S4096x256_S256x256_1_0_0_1_n_n none (shapeCast S256x4096 x0 _)
      (shapeCast S4096x256 x1 _) (constant (F := Ideal) S256x256 .f32 0x00000000#32))
      (broadcastTo S256x256 (shapeCast S1x256 x2 _) _) (ix2 r q)) zeroWord = _
  rw [shapeCast_self x0, shapeCast_self x1]
  rw [matmul_bias_block dot_S256x4096_S4096x256_S256x256_1_0_0_1_n_n rfl rfl rfl rfl rfl rfl]

theorem agg1_at' (x0 : FVec Ideal S256x4096 .f32) (x1 : FVec Ideal S4096x256 .f32) (x2 : FVec Ideal S1x256 .f32)
    (j : S256x256.Idx) :
    k1_pay1 (F := Ideal) x0 x1 x2 j
      = max ((∑ k : Fin 4096, x0 (ix2 (j 0 : Fin 256) k) * x1 (ix2 k (j 1 : Fin 256))) + x2 (ix2 (0 : Fin 1) (j 1 : Fin 256))) zeroWord :=
  (congrArg (k1_pay1 (F := Ideal) x0 x1 x2) (eq_ix2 j)).trans (agg1_at x0 x1 x2 (j 0) (j 1))

/-- The third body: row `r` of the block of the hidden layer against column `q` of `W₂`. -/
theorem xw2_at (x0 : FVec Ideal S256x256 .f32) (x1 : FVec Ideal S256x128 .f32) (r : Fin 256) (q : Fin 128) :
    k2_pay1 (F := Ideal) x0 x1 (ix2 r q) = ∑ h : Fin 256, x0 (ix2 r h) * x1 (ix2 h q) := by
  show matmul (F := Ideal) dot_S256x256_S256x128_S256x128_1_0_0_1_n_n none (shapeCast S256x256 x0 _)
      (shapeCast S256x128 x1 _) (constant (F := Ideal) S256x128 .f32 0x00000000#32) (ix2 r q) = _
  rw [shapeCast_self x0, shapeCast_self x1]
  exact matmul_block dot_S256x256_S256x128_S256x128_1_0_0_1_n_n rfl rfl rfl rfl rfl rfl _ _ r q

theorem xw2_at' (x0 : FVec Ideal S256x256 .f32) (x1 : FVec Ideal S256x128 .f32) (j : S256x128.Idx) :
    k2_pay1 (F := Ideal) x0 x1 j = ∑ h : Fin 256, x0 (ix2 (j 0 : Fin 256) h) * x1 (ix2 h (j 1 : Fin 128)) :=
  (congrArg (k2_pay1 (F := Ideal) x0 x1) (eq_ix2 j)).trans (xw2_at x0 x1 (j 0) (j 1))

/-- The last body: the block of `A` against `H₂`, plus the bias row. -/
theorem agg2_at (x0 : FVec Ideal S256x4096 .f32) (x1 : FVec Ideal S4096x128 .f32) (x2 : FVec Ideal S1x128 .f32)
    (r : Fin 256) (q : Fin 128) :
    k3_pay1 (F := Ideal) x0 x1 x2 (ix2 r q) = (∑ k : Fin 4096, x0 (ix2 r k) * x1 (ix2 k q)) + x2 (ix2 (0 : Fin 1) q) := by
  show addf (matmul (F := Ideal) dot_S256x4096_S4096x128_S256x128_1_0_0_1_n_n none (shapeCast S256x4096 x0 _)
      (shapeCast S4096x128 x1 _) (constant (F := Ideal) S256x128 .f32 0x00000000#32))
      (broadcastTo S256x128 (shapeCast S1x128 x2 _) _) (ix2 r q) = _
  rw [shapeCast_self x0, shapeCast_self x1]
  exact matmul_bias_block dot_S256x4096_S4096x128_S256x128_1_0_0_1_n_n rfl rfl rfl rfl rfl rfl _ _ x2 _ _ r q

theorem agg2_at' (x0 : FVec Ideal S256x4096 .f32) (x1 : FVec Ideal S4096x128 .f32) (x2 : FVec Ideal S1x128 .f32)
    (j : S256x128.Idx) :
    k3_pay1 (F := Ideal) x0 x1 x2 j
      = (∑ k : Fin 4096, x0 (ix2 (j 0 : Fin 256) k) * x1 (ix2 k (j 1 : Fin 128))) + x2 (ix2 (0 : Fin 1) (j 1 : Fin 128)) :=
  (congrArg (k3_pay1 (F := Ideal) x0 x1 x2) (eq_ix2 j)).trans (agg2_at x0 x1 x2 (j 0) (j 1))

/-! ## Region 0: `X · W₁`, 256 rows at a point -/

/-- The printed index maps over the grid: the moving windows follow the output's block of rows, the others stay. -/
theorem idx0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of 256 rows is some point's. -/
theorem onto0 : ∀ q0 : Fin 16, ∃ t : Fin cfg0.N, win0_2.index t = ![q0.val, 0] :=
  (by decide +kernel : ∀ q0 : Fin 16, ∃ t : Fin grid0.N, win0_2.index t = ![q0.val, 0])

/-- What point `t` writes back is its block of the whole stage. -/
theorem flushed0 (c : Dev nD) (t : Fin cfg0.N) :
    (dat0 V c).flushed 2 t = ((cfg0.win 2).blk t).view.read (Elt Ideal)
      (prod (m := 4096) (k := 1408) (n := 256) (V c main_v0) (V c main_v2)) := by
  show (cfg0.win 2).cut (grid0.coords t) ((dat0 V c).after 2 t) = _
  rw [after0_2]
  unfold out0_2
  rw [View.canon_unit_zero hz]
  simp only [View.ld_unit_zero (S := S256x1408) hz, View.ld_unit_zero (S := S1408x256) hz]
  obtain ⟨e0, e1, e2, e3, e4⟩ := idx0 t
  funext j
  refine (xw1_at' (iblk0 V c 0 t) (iblk0 V c 1 t) j).trans ?_
  refine prod_eq_of_rows (m := 4096) (k := 1408) (n := 256) (bm := 256) (bn := 256) (V c main_v0) (V c main_v2)
    (iblk0 V c 0 t) (iblk0 V c 1 t) (((cfg0.win 2).blk t).view.emb j) (j 0) (j 1) (fun k => ?_) (fun k => ?_)
  · show V c main_v0 (((cfg0.win 0).blk t).view.emb (ix2 (j 0 : Fin 256) k)) = _
    refine congrArg (V c main_v0) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 1408 + 1 * k.val = k.val; omega
  · show V c main_v2 (((cfg0.win 1).blk t).view.emb (ix2 k (j 1 : Fin 256))) = _
    refine congrArg (V c main_v2) (funext fun a => Fin.ext ?_)
    match a with
    | ⟨0, _⟩ => show win0_1.index t (0 : Fin 2) * 1408 + 1 * k.val = k.val; omega
    | ⟨1, _⟩ => show win0_1.index t (1 : Fin 2) * 256 + 1 * (j 1).val = win0_2.index t (1 : Fin 2) * 256 + 1 * (j 1).val; omega

theorem mem_blk0 (t : Fin cfg0.N) (i : S4096x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v8).slice (win0_2.rect t)).set ↔ _
  rw [View.set_slice_whole, Rect.mem_set_unit]
  exact Iff.rfl

/-- Every row of the array lies in the block of the point `row / 256`. -/
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ := onto0 ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- After the region the output array is the whole stage of the arrays the region found. -/
theorem final0 (c : Dev nD) :
    (dat0 V c).arrAt 2 cfg0.N = prod (m := 4096) (k := 1408) (n := 256) (V c main_v0) (V c main_v2) :=
  (dat0 V c).arrAt_eq_of_cover 2 _ (fun t _ => flushed0 V c t) cover0

/-! ## Region 1: `relu (A · H₁ + b₁)`, 256 rows at a point -/

/-- The printed index maps over the grid: the moving windows follow the output's block of rows, the others stay. -/
theorem idx1 : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every block of 256 rows is some point's. -/
theorem onto1 : ∀ q0 : Fin 16, ∃ t : Fin cfg1.N, win1_3.index t = ![q0.val, 0] :=
  (by decide +kernel : ∀ q0 : Fin 16, ∃ t : Fin grid1.N, win1_3.index t = ![q0.val, 0])

/-- What point `t` writes back is its block of the whole stage. -/
theorem flushed1 (c : Dev nD) (t : Fin cfg1.N) :
    (dat1 V c).flushed 3 t = ((cfg1.win 3).blk t).view.read (Elt Ideal)
      (relu (agg (m := 4096) (k := 4096) (n := 256) (V c main_v1) (V c main_v8) (V c main_v4))) := by
  show (cfg1.win 3).cut (grid1.coords t) ((dat1 V c).after 3 t) = _
  rw [after1_3]
  unfold out1_3
  rw [View.canon_unit_zero hz]
  simp only [View.ld_unit_zero (S := S256x4096) hz, View.ld_unit_zero (S := S4096x256) hz, View.ld_unit_zero (S := S1x256) hz]
  obtain ⟨e0, e1, e2, e3, e4, e5, e6⟩ := idx1 t
  funext j
  refine (agg1_at' (iblk1 V c 0 t) (iblk1 V c 1 t) (iblk1 V c 2 t) j).trans ?_
  refine relu_agg_eq_of_rows (m := 4096) (k := 4096) (n := 256) (bm := 256) (bn := 256) (V c main_v1) (V c main_v8) (V c main_v4)
    (iblk1 V c 0 t) (iblk1 V c 1 t) (iblk1 V c 2 t) (((cfg1.win 3).blk t).view.emb j) (j 0) (j 1) (fun k => ?_) (fun k => ?_) ?_
  · show V c main_v1 (((cfg1.win 0).blk t).view.emb (ix2 (j 0 : Fin 256) k)) = _
    refine congrArg (V c main_v1) (funext fun a => Fin.ext ?_)
    match a with
    | ⟨0, _⟩ => show win1_0.index t (0 : Fin 2) * 256 + 1 * (j 0).val = win1_3.index t (0 : Fin 2) * 256 + 1 * (j 0).val; omega
    | ⟨1, _⟩ => show win1_0.index t (1 : Fin 2) * 4096 + 1 * k.val = k.val; omega
  · show V c main_v8 (((cfg1.win 1).blk t).view.emb (ix2 k (j 1 : Fin 256))) = _
    refine congrArg (V c main_v8) (funext fun a => Fin.ext ?_)
    match a with
    | ⟨0, _⟩ => show win1_1.index t (0 : Fin 2) * 4096 + 1 * k.val = k.val; omega
    | ⟨1, _⟩ => show win1_1.index t (1 : Fin 2) * 256 + 1 * (j 1).val = win1_3.index t (1 : Fin 2) * 256 + 1 * (j 1).val; omega
  · show V c main_v4 (((cfg1.win 2).blk t).view.emb (ix2 (0 : Fin 1) (j 1 : Fin 256))) = _
    refine congrArg (V c main_v4) (funext fun a => Fin.ext ?_)
    match a with
    | ⟨0, _⟩ => show win1_2.index t (0 : Fin 2) * 1 + 1 * 0 = 0; omega
    | ⟨1, _⟩ => show win1_2.index t (1 : Fin 2) * 256 + 1 * (j 1).val = win1_3.index t (1 : Fin 2) * 256 + 1 * (j 1).val; omega

theorem mem_blk1 (t : Fin cfg1.N) (i : S4096x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v9).slice (win1_3.rect t)).set ↔ _
  rw [View.set_slice_whole, Rect.mem_set_unit]
  exact Iff.rfl

/-- Every row of the array lies in the block of the point `row / 256`. -/
theorem cover1 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  obtain ⟨t, ht⟩ := onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 256 ≤ (i 1).val ∧ (i 1).val < win1_3.index t (1 : Fin 2) * 256 + 256; omega

/-- After the region the output array is the whole stage of the arrays the region found. -/
theorem final1 (c : Dev nD) :
    (dat1 V c).arrAt 3 cfg1.N = relu (agg (m := 4096) (k := 4096) (n := 256) (V c main_v1) (V c main_v8) (V c main_v4)) :=
  (dat1 V c).arrAt_eq_of_cover 3 _ (fun t _ => flushed1 V c t) cover1

/-! ## Region 2: the hidden layer times `W₂`, 256 rows at a point -/

/-- The printed index maps over the grid: the moving windows follow the output's block of rows, the others stay. -/
theorem idx2 : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every block of 256 rows is some point's. -/
theorem onto2 : ∀ q0 : Fin 16, ∃ t : Fin cfg2.N, win2_2.index t = ![q0.val, 0] :=
  (by decide +kernel : ∀ q0 : Fin 16, ∃ t : Fin grid2.N, win2_2.index t = ![q0.val, 0])

/-- What point `t` writes back is its block of the whole stage. -/
theorem flushed2 (c : Dev nD) (t : Fin cfg2.N) :
    (dat2 V c).flushed 2 t = ((cfg2.win 2).blk t).view.read (Elt Ideal)
      (prod (m := 4096) (k := 256) (n := 128) (V c main_v9) (V c main_v5)) := by
  show (cfg2.win 2).cut (grid2.coords t) ((dat2 V c).after 2 t) = _
  rw [after2_2]
  unfold out2_2
  rw [View.canon_unit_zero hz]
  simp only [View.ld_unit_zero (S := S256x256) hz, View.ld_unit_zero (S := S256x128) hz]
  obtain ⟨e0, e1, e2, e3, e4⟩ := idx2 t
  funext j
  refine (xw2_at' (iblk2 V c 0 t) (iblk2 V c 1 t) j).trans ?_
  refine prod_eq_of_rows (m := 4096) (k := 256) (n := 128) (bm := 256) (bn := 128) (V c main_v9) (V c main_v5)
    (iblk2 V c 0 t) (iblk2 V c 1 t) (((cfg2.win 2).blk t).view.emb j) (j 0) (j 1) (fun k => ?_) (fun k => ?_)
  · show V c main_v9 (((cfg2.win 0).blk t).view.emb (ix2 (j 0 : Fin 256) k)) = _
    refine congrArg (V c main_v9) (funext fun a => Fin.ext ?_)
    match a with
    | ⟨0, _⟩ => show win2_0.index t (0 : Fin 2) * 256 + 1 * (j 0).val = win2_2.index t (0 : Fin 2) * 256 + 1 * (j 0).val; omega
    | ⟨1, _⟩ => show win2_0.index t (1 : Fin 2) * 256 + 1 * k.val = k.val; omega
  · show V c main_v5 (((cfg2.win 1).blk t).view.emb (ix2 k (j 1 : Fin 128))) = _
    refine congrArg (V c main_v5) (funext fun a => Fin.ext ?_)
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega

theorem mem_blk2 (t : Fin cfg2.N) (i : S4096x128.Idx) :
    i ∈ ((cfg2.win 2).blk t).view.set ↔ ∀ a : Fin 2, win2_2.index t a * S256x128.size a ≤ (i a).val ∧ (i a).val < win2_2.index t a * S256x128.size a + S256x128.size a := by
  show i ∈ ((View.whole main_v10).slice (win2_2.rect t)).set ↔ _
  rw [View.set_slice_whole, Rect.mem_set_unit]
  exact Iff.rfl

/-- Every row of the array lies in the block of the point `row / 256`. -/
theorem cover2 (i : S4096x128.Idx) : ∃ t : Fin cfg2.N, (cfg2.win 2).flush t = true ∧ i ∈ ((cfg2.win 2).blk t).view.set := by
  have hi0 : (i 0).val < 4096 := (i 0).isLt
  have hi1 : (i 1).val < 128 := (i 1).isLt
  obtain ⟨t, ht⟩ := onto2 ⟨(i 0).val / 256, by omega⟩
  have q0 : win2_2.index t (0 : Fin 2) = (i 0).val / 256 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 128 ≤ (i 1).val ∧ (i 1).val < win2_2.index t (1 : Fin 2) * 128 + 128; omega

/-- After the region the output array is the whole stage of the arrays the region found. -/
theorem final2 (c : Dev nD) :
    (dat2 V c).arrAt 2 cfg2.N = prod (m := 4096) (k := 256) (n := 128) (V c main_v9) (V c main_v5) :=
  (dat2 V c).arrAt_eq_of_cover 2 _ (fun t _ => flushed2 V c t) cover2

/-! ## Region 3: `A · H₂ + b₂`, 256 rows at a point -/

/-- The printed index maps over the grid: the moving windows follow the output's block of rows, the others stay. -/
theorem idx3 : ∀ t : Fin cfg3.N,
    win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0 :=
  (by decide +kernel : ∀ t : Fin grid3.N, _)

/-- Every block of 256 rows is some point's. -/
theorem onto3 : ∀ q0 : Fin 16, ∃ t : Fin cfg3.N, win3_3.index t = ![q0.val, 0] :=
  (by decide +kernel : ∀ q0 : Fin 16, ∃ t : Fin grid3.N, win3_3.index t = ![q0.val, 0])

/-- What point `t` writes back is its block of the whole stage. -/
theorem flushed3 (c : Dev nD) (t : Fin cfg3.N) :
    (dat3 V c).flushed 3 t = ((cfg3.win 3).blk t).view.read (Elt Ideal)
      (agg (m := 4096) (k := 4096) (n := 128) (V c main_v1) (V c main_v10) (V c main_v7)) := by
  show (cfg3.win 3).cut (grid3.coords t) ((dat3 V c).after 3 t) = _
  rw [after3_3]
  unfold out3_3
  rw [View.canon_unit_zero hz]
  simp only [View.ld_unit_zero (S := S256x4096) hz, View.ld_unit_zero (S := S4096x128) hz, View.ld_unit_zero (S := S1x128) hz]
  obtain ⟨e0, e1, e2, e3, e4, e5, e6⟩ := idx3 t
  funext j
  refine (agg2_at' (iblk3 V c 0 t) (iblk3 V c 1 t) (iblk3 V c 2 t) j).trans ?_
  refine agg_eq_of_rows (m := 4096) (k := 4096) (n := 128) (bm := 256) (bn := 128) (V c main_v1) (V c main_v10) (V c main_v7)
    (iblk3 V c 0 t) (iblk3 V c 1 t) (iblk3 V c 2 t) (((cfg3.win 3).blk t).view.emb j) (j 0) (j 1) (fun k => ?_) (fun k => ?_) ?_
  · show V c main_v1 (((cfg3.win 0).blk t).view.emb (ix2 (j 0 : Fin 256) k)) = _
    refine congrArg (V c main_v1) (funext fun a => Fin.ext ?_)
    match a with
    | ⟨0, _⟩ => show win3_0.index t (0 : Fin 2) * 256 + 1 * (j 0).val = win3_3.index t (0 : Fin 2) * 256 + 1 * (j 0).val; omega
    | ⟨1, _⟩ => show win3_0.index t (1 : Fin 2) * 4096 + 1 * k.val = k.val; omega
  · show V c main_v10 (((cfg3.win 1).blk t).view.emb (ix2 k (j 1 : Fin 128))) = _
    refine congrArg (V c main_v10) (funext fun a => Fin.ext ?_)
    match a with
    | ⟨0, _⟩ => show win3_1.index t (0 : Fin 2) * 4096 + 1 * k.val = k.val; omega
    | ⟨1, _⟩ => show win3_1.index t (1 : Fin 2) * 128 + 1 * (j 1).val = win3_3.index t (1 : Fin 2) * 128 + 1 * (j 1).val; omega
  · show V c main_v7 (((cfg3.win 2).blk t).view.emb (ix2 (0 : Fin 1) (j 1 : Fin 128))) = _
    refine congrArg (V c main_v7) (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

theorem mem_blk3 (t : Fin cfg3.N) (i : S4096x128.Idx) :
    i ∈ ((cfg3.win 3).blk t).view.set ↔ ∀ a : Fin 2, win3_3.index t a * S256x128.size a ≤ (i a).val ∧ (i a).val < win3_3.index t a * S256x128.size a + S256x128.size a := by
  show i ∈ ((View.whole main_v11).slice (win3_3.rect t)).set ↔ _
  rw [View.set_slice_whole, Rect.mem_set_unit]
  exact Iff.rfl

/-- Every row of the array lies in the block of the point `row / 256`. -/
theorem cover3 (i : S4096x128.Idx) : ∃ t : Fin cfg3.N, (cfg3.win 3).flush t = true ∧ i ∈ ((cfg3.win 3).blk t).view.set := by
  have hi0 : (i 0).val < 4096 := (i 0).isLt
  have hi1 : (i 1).val < 128 := (i 1).isLt
  obtain ⟨t, ht⟩ := onto3 ⟨(i 0).val / 256, by omega⟩
  have q0 : win3_3.index t (0 : Fin 2) = (i 0).val / 256 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 256 ≤ (i 0).val ∧ (i 0).val < win3_3.index t (0 : Fin 2) * 256 + 256; omega
  | ⟨1, _⟩ => show win3_3.index t (1 : Fin 2) * 128 ≤ (i 1).val ∧ (i 1).val < win3_3.index t (1 : Fin 2) * 128 + 128; omega

/-- After the region the output array is the whole stage of the arrays the region found. -/
theorem final3 (c : Dev nD) :
    (dat3 V c).arrAt 3 cfg3.N = agg (m := 4096) (k := 4096) (n := 128) (V c main_v1) (V c main_v10) (V c main_v7) :=
  (dat3 V c).arrAt_eq_of_cover 3 _ (fun t _ => flushed3 V c t) cover3

end Cert.ReferenceIdeal.Blocks

end
-- ==== Proof.RRun.lean ====
/-
  The idealized reference's result as a function of its arguments.

  At the end of the run the result buffer holds the first 40 columns of the last region's array. That array is
  `A · H₂ + b₂` of the arrays the region found; `H₂` is what the third region left, the hidden layer times `W₂`; the
  hidden layer is what the second region left, `relu (A · H₁ + b₁)`; `H₁` is what the first region left, `X · W₁`. The
  arrays the regions find that no region wrote are what the host operations before them made of the arguments: `X`,
  `A`, `W₁` and the row of `b₁` pass through a pad of width zero, which changes nothing; the bias rows are the bias
  vectors recast as one row; `W₂` and `b₂` are padded with zero columns up to 128.
-/
import proofs.«108747_g2000603737520232_pallasbulk_743_2_alg».proof.Proof.RHeld
import proofs.«108747_g2000603737520232_pallasbulk_743_2_alg».proof.Proof.RRegions
import Idealize.ShloMosaic.Lib.StableHlo.Run
import Idealize.ShloMosaic.PureOps.Ideal

set_option maxRecDepth 16384

noncomputable section

namespace Cert.ReferenceIdeal.Result

open Idealize.ShloMosaic Idealize.ShloMosaic.TcCoe Idealize.ShloMosaic.ValueIdx Idealize.ShloMosaic.StableHlo
open Idealize.SL.Sem
open Idealize.ShloMosaic.Pipeline (Dat)
open Cert.ReferenceIdeal Cert.ReferenceIdeal.Gen Cert.ReferenceIdeal.Blocks Cert.Gcn

variable (m : (ℓ : Loc nD τ sig) → Buf (Elt Ideal) ℓ) (ρ : Dev nD → PrngReg)

/-- The result on core `c`, from the argument arrays in `m`: the network of the arguments (the biases as rows, `W₂` and
    `b₂` padded with zero columns), cut to its first 40 columns. -/
def out (c : Dev nD) : S4096x40.Idx → EReal :=
  extractStridedSlice S4096x40 ![0, 0]
    (gcn (N := 4096) (f := 1408) (h := 256) (o := 128)
      (m ((c : Thread nD τ).loc main_arg0)) (m ((c : Thread nD τ).loc main_arg1)) (m ((c : Thread nD τ).loc main_arg2))
      (shapeCast S1x256 (m ((c : Thread nD τ).loc main_arg3) : S256.Idx → EReal) Facts₀.shapeCasts_S256_S1x256)
      (pad S256x128 ![0, 0] ![0, 88] ![0, 0] (m ((c : Thread nD τ).loc main_arg4) : S256x40.Idx → EReal)
          (sitofp (F := Ideal) .f32 (constantI S_ 32 0#32)) Facts₀.pads_S256x40_S256x128_000_0880 Facts₀.h_S_)
      (pad S1x128 ![0, 0] ![0, 88] ![0, 0]
          (shapeCast S1x40 (m ((c : Thread nD τ).loc main_arg5) : S40.Idx → EReal) Facts₀.shapeCasts_S40_S1x40)
          (sitofp (F := Ideal) .f32 (constantI S_ 32 0#32)) Facts₀.pads_S1x40_S1x128_000_0880 Facts₀.h_S_))
    Facts₀.slices_S4096x128_S4096x40_0_0

/-! ## What the host operations before the regions leave -/

theorem entry_v0 (c : Dev nD) :
    (W12 (F := Ideal) m ρ c (Proc.devRef .tc main_v0) : S4096x1408.Idx → EReal) = m ((c : Thread nD τ).loc main_arg0) := by
  have e : (W12 (F := Ideal) m ρ c (Proc.devRef .tc main_v0) : S4096x1408.Idx → EReal)
      = pad S4096x1408 ![0, 0] ![0, 0] ![0, 0] (m ((c : Thread nD τ).loc main_arg0) : S4096x1408.Idx → EReal) (sitofp (F := Ideal) .f32 (constantI S_ 32 0#32)) Facts₀.pads_S4096x1408_S4096x1408_000_000 Facts₀.h_S_ := by
    after_results
    all_goals rfl
  exact e.trans (pad_none _ _ _ _)

theorem entry_v1 (c : Dev nD) :
    (W12 (F := Ideal) m ρ c (Proc.devRef .tc main_v1) : S4096x4096.Idx → EReal) = m ((c : Thread nD τ).loc main_arg1) := by
  have e : (W12 (F := Ideal) m ρ c (Proc.devRef .tc main_v1) : S4096x4096.Idx → EReal)
      = pad S4096x4096 ![0, 0] ![0, 0] ![0, 0] (m ((c : Thread nD τ).loc main_arg1) : S4096x4096.Idx → EReal) (sitofp (F := Ideal) .f32 (constantI S_ 32 0#32)) Facts₀.pads_S4096x4096_S4096x4096_000_000 Facts₀.h_S_ := by
    after_results
    all_goals rfl
  exact e.trans (pad_none _ _ _ _)

theorem entry_v2 (c : Dev nD) :
    (W12 (F := Ideal) m ρ c (Proc.devRef .tc main_v2) : S1408x256.Idx → EReal) = m ((c : Thread nD τ).loc main_arg2) := by
  have e : (W12 (F := Ideal) m ρ c (Proc.devRef .tc main_v2) : S1408x256.Idx → EReal)
      = pad S1408x256 ![0, 0] ![0, 0] ![0, 0] (m ((c : Thread nD τ).loc main_arg2) : S1408x256.Idx → EReal) (sitofp (F := Ideal) .f32 (constantI S_ 32 0#32)) Facts₀.pads_S1408x256_S1408x256_000_000 Facts₀.h_S_ := by
    after_results
    all_goals rfl
  exact e.trans (pad_none _ _ _ _)

theorem entry_v4 (c : Dev nD) :
    (W12 (F := Ideal) m ρ c (Proc.devRef .tc main_v4) : S1x256.Idx → EReal) = (shapeCast S1x256 (m ((c : Thread nD τ).loc main_arg3) : S256.Idx → EReal) Facts₀.shapeCasts_S256_S1x256) := by
  have e : (W12 (F := Ideal) m ρ c (Proc.devRef .tc main_v4) : S1x256.Idx → EReal)
      = pad S1x256 ![0, 0] ![0, 0] ![0, 0] (shapeCast S1x256 (m ((c : Thread nD τ).loc main_arg3) : S256.Idx → EReal) Facts₀.shapeCasts_S256_S1x256) (sitofp (F := Ideal) .f32 (constantI S_ 32 0#32)) Facts₀.pads_S1x256_S1x256_000_000 Facts₀.h_S_ := by
    after_results
    all_goals rfl
  exact e.trans (pad_none _ _ _ _)

theorem entry_v5 (c : Dev nD) :
    (W12 (F := Ideal) m ρ c (Proc.devRef .tc main_v5) : S256x128.Idx → EReal) = (pad S256x128 ![0, 0] ![0, 88] ![0, 0] (m ((c : Thread nD τ).loc main_arg4) : S256x40.Idx → EReal)
          (sitofp (F := Ideal) .f32 (constantI S_ 32 0#32)) Facts₀.pads_S256x40_S256x128_000_0880 Facts₀.h_S_) := by
  after_results
  all_goals rfl

theorem entry_v7 (c : Dev nD) :
    (W12 (F := Ideal) m ρ c (Proc.devRef .tc main_v7) : S1x128.Idx → EReal) = (pad S1x128 ![0, 0] ![0, 88] ![0, 0]
          (shapeCast S1x40 (m ((c : Thread nD τ).loc main_arg5) : S40.Idx → EReal) Facts₀.shapeCasts_S40_S1x40)
          (sitofp (F := Ideal) .f32 (constantI S_ 32 0#32)) Facts₀.pads_S1x40_S1x128_000_0880 Facts₀.h_S_) := by
  after_results
  all_goals rfl

/-! ## What each region finds, and leaves -/

/-- The first region leaves `H₁ = X · W₁`. -/
theorem h1_eq (c : Dev nD) :
    (V13 (F := Ideal) m ρ c main_v8 : S4096x256.Idx → EReal)
      = prod (m := 4096) (k := 1408) (n := 256) (m ((c : Thread nD τ).loc main_arg0)) (m ((c : Thread nD τ).loc main_arg2)) := by
  have e := (W13_arr (F := Ideal) m ρ c 2).trans (final0 (V12 (F := Ideal) m ρ) c)
  rw [show (V12 (F := Ideal) m ρ c main_v0 : S4096x1408.Idx → EReal) = _ from entry_v0 m ρ c,
    show (V12 (F := Ideal) m ρ c main_v2 : S1408x256.Idx → EReal) = _ from entry_v2 m ρ c] at e
  exact e

theorem mid_v1 (c : Dev nD) :
    (V13 (F := Ideal) m ρ c main_v1 : S4096x4096.Idx → EReal) = m ((c : Thread nD τ).loc main_arg1) :=
  (W13_of_ne (F := Ideal) m ρ c main_v1 (by decide)).trans (entry_v1 m ρ c)

theorem mid_v4 (c : Dev nD) :
    (V13 (F := Ideal) m ρ c main_v4 : S1x256.Idx → EReal) = (shapeCast S1x256 (m ((c : Thread nD τ).loc main_arg3) : S256.Idx → EReal) Facts₀.shapeCasts_S256_S1x256) :=
  (W13_of_ne (F := Ideal) m ρ c main_v4 (by decide)).trans (entry_v4 m ρ c)

/-- The second region leaves the hidden layer `relu (A · H₁ + b₁)`. -/
theorem hidden_eq (c : Dev nD) :
    (V14 (F := Ideal) m ρ c main_v9 : S4096x256.Idx → EReal)
      = relu (agg (m := 4096) (k := 4096) (n := 256) (m ((c : Thread nD τ).loc main_arg1))
          (prod (m := 4096) (k := 1408) (n := 256) (m ((c : Thread nD τ).loc main_arg0)) (m ((c : Thread nD τ).loc main_arg2))) (shapeCast S1x256 (m ((c : Thread nD τ).loc main_arg3) : S256.Idx → EReal) Facts₀.shapeCasts_S256_S1x256)) := by
  have e := (W14_arr (F := Ideal) m ρ c 3).trans (final1 (V13 (F := Ideal) m ρ) c)
  rw [mid_v1 m ρ c, h1_eq m ρ c, mid_v4 m ρ c] at e
  exact e

theorem later_v5 (c : Dev nD) :
    (V14 (F := Ideal) m ρ c main_v5 : S256x128.Idx → EReal) = (pad S256x128 ![0, 0] ![0, 88] ![0, 0] (m ((c : Thread nD τ).loc main_arg4) : S256x40.Idx → EReal)
          (sitofp (F := Ideal) .f32 (constantI S_ 32 0#32)) Facts₀.pads_S256x40_S256x128_000_0880 Facts₀.h_S_) :=
  (W14_of_ne (F := Ideal) m ρ c main_v5 (by decide)).trans ((W13_of_ne (F := Ideal) m ρ c main_v5 (by decide)).trans (entry_v5 m ρ c))

/-- The third region leaves `H₂`, the hidden layer times the padded `W₂`. -/
theorem h2_eq (c : Dev nD) :
    (V15 (F := Ideal) m ρ c main_v10 : S4096x128.Idx → EReal)
      = prod (m := 4096) (k := 256) (n := 128)
          (relu (agg (m := 4096) (k := 4096) (n := 256) (m ((c : Thread nD τ).loc main_arg1))
            (prod (m := 4096) (k := 1408) (n := 256) (m ((c : Thread nD τ).loc main_arg0)) (m ((c : Thread nD τ).loc main_arg2))) (shapeCast S1x256 (m ((c : Thread nD τ).loc main_arg3) : S256.Idx → EReal) Facts₀.shapeCasts_S256_S1x256)))
          (pad S256x128 ![0, 0] ![0, 88] ![0, 0] (m ((c : Thread nD τ).loc main_arg4) : S256x40.Idx → EReal)
          (sitofp (F := Ideal) .f32 (constantI S_ 32 0#32)) Facts₀.pads_S256x40_S256x128_000_0880 Facts₀.h_S_) := by
  have e := (W15_arr (F := Ideal) m ρ c 2).trans (final2 (V14 (F := Ideal) m ρ) c)
  rw [hidden_eq m ρ c, later_v5 m ρ c] at e
  exact e

theorem last_v1 (c : Dev nD) :
    (V15 (F := Ideal) m ρ c main_v1 : S4096x4096.Idx → EReal) = m ((c : Thread nD τ).loc main_arg1) :=
  (W15_of_ne (F := Ideal) m ρ c main_v1 (by decide)).trans
    (((W14_arr (F := Ideal) m ρ c 0).trans (((dat1 (V13 (F := Ideal) m ρ) c).arrAt_in 0 rfl _).trans (A_eq1 (V13 (F := Ideal) m ρ) c 0))).trans
      (mid_v1 m ρ c))

theorem last_v7 (c : Dev nD) :
    (V15 (F := Ideal) m ρ c main_v7 : S1x128.Idx → EReal) = (pad S1x128 ![0, 0] ![0, 88] ![0, 0]
          (shapeCast S1x40 (m ((c : Thread nD τ).loc main_arg5) : S40.Idx → EReal) Facts₀.shapeCasts_S40_S1x40)
          (sitofp (F := Ideal) .f32 (constantI S_ 32 0#32)) Facts₀.pads_S1x40_S1x128_000_0880 Facts₀.h_S_) :=
  (W15_of_ne (F := Ideal) m ρ c main_v7 (by decide)).trans ((W14_of_ne (F := Ideal) m ρ c main_v7 (by decide)).trans
    ((W13_of_ne (F := Ideal) m ρ c main_v7 (by decide)).trans (entry_v7 m ρ c)))

/-- THE RESULT BUFFER at the end of the fold is `out`. -/
theorem result_eq (c : Dev nD) :
    (W17 (F := Ideal) m ρ c (Proc.devRef .tc main_v12) : S4096x40.Idx → EReal) = out m c := by
  have e12 : (W17 (F := Ideal) m ρ c (Proc.devRef .tc main_v12) : S4096x40.Idx → EReal)
      = extractStridedSlice S4096x40 ![0, 0] (W16 (F := Ideal) m ρ c (Proc.devRef .tc main_v11) : S4096x128.Idx → EReal)
          Facts₀.slices_S4096x128_S4096x40_0_0 := by
    after_results
    all_goals rfl
  have e11 := (W16_arr (F := Ideal) m ρ c 3).trans (final3 (V15 (F := Ideal) m ρ) c)
  rw [last_v1 m ρ c, h2_eq m ρ c, last_v7 m ρ c] at e11
  rw [e12]
  unfold out gcn
  exact congrArg (fun Y => extractStridedSlice S4096x40 ![0, 0] Y Facts₀.slices_S4096x128_S4096x40_0_0) e11

/-! ## The run -/

/-- Every weakly fair execution of the idealized reference terminates without a fault with the result buffer at `out`
    and the arguments unchanged. -/
theorem run : θ_run defs (onTc (τ := τ) (main (F := Ideal))) ⟨m, fun _ => 0, ρ⟩ (fun r => ∀ c : Dev nD,
      r.2.mem ((c.tc : Thread nD τ).loc main_v12) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v12 (by decide))).trans (result_eq m ρ c),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c)⟩)
    (Cert.ReferenceIdeal.Held.run_held m ρ)

end Cert.ReferenceIdeal.Result

end
-- ==== Proof.lean ====
/-
  The certificate: a two-layer graph convolution computed by three kernel regions, against the same network computed by
  four.

  Both programs compute `A · (relu (A · (X · W₁) + b₁) · W₂) + b₂` and return its first 40 columns, with `W₂` and `b₂`
  padded by zero columns to 128. The kernel tiles the rows by 512 and fuses the hidden layer with its product by `W₂`
  into one region, changing float format on the way; the reference tiles by 256 and keeps them apart. On the extended
  reals a change of float format is the identity and each matrix product is the sum over the contracted coordinate, so
  both results are one function of the arguments, built by the same sums in the same grouping: no law of arithmetic is
  needed to join them, and the finiteness of the inputs is never used.

  The three frames are the generated ones (the reference's is its run with the result dropped). The idealization
  rewrote nothing, so there is nothing to preserve. For the value claim each program's run is stated with its result
  buffer at that function of the arguments; the two agree once the reference's arguments are rewritten to the kernel's.
-/
import proofs.«108747_g2000603737520232_pallasbulk_743_2_alg».proof.Defs
import proofs.«108747_g2000603737520232_pallasbulk_743_2_alg».proof.Proof.Gen.Kernel
import proofs.«108747_g2000603737520232_pallasbulk_743_2_alg».proof.Proof.Gen.Kernel.Frame
import proofs.«108747_g2000603737520232_pallasbulk_743_2_alg».proof.Proof.Gen.KernelIdeal
import proofs.«108747_g2000603737520232_pallasbulk_743_2_alg».proof.Proof.Gen.KernelIdeal.Frame
import proofs.«108747_g2000603737520232_pallasbulk_743_2_alg».proof.Proof.Gen.ReferenceIdeal
import proofs.«108747_g2000603737520232_pallasbulk_743_2_alg».proof.Proof.Gen.ReferenceIdeal.Frame
import proofs.«108747_g2000603737520232_pallasbulk_743_2_alg».proof.Proof.Gen.Pre_finite_inputs
import proofs.«108747_g2000603737520232_pallasbulk_743_2_alg».proof.Proof.KRun
import proofs.«108747_g2000603737520232_pallasbulk_743_2_alg».proof.Proof.RRun
import Idealize.ShloMosaic.Adequacy
import Idealize.ShloMosaic.Init

noncomputable section

namespace Cert.Proof

open Idealize.ShloMosaic Idealize.SL.Sem

/-- The two results are one function of the arguments: with the reference's arguments the kernel's, the only
    differences left are the kernel's changes of float format, which are the identity on the extended reals. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Result.out m' c = Cert.KernelIdeal.Result.out m c := by
  unfold Cert.ReferenceIdeal.Result.out Cert.KernelIdeal.Result.out
  rw [h0, h1, h2, h3, h4, h5]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Result.run m ρ)

theorem preserves : Cert.preserves_Kernel_KernelIdeal := trivial

theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Result.run m' ρ')
  obtain ⟨h0, h1, h2, h3, h4, h5⟩ := hagree c
  exact out_eq m m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
